-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048x2048 .f32) (main_arg7 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048x2048 .f32) (main_arg5 : FVec F S2048 .f32) (main_arg6 : FVec F S2048x2048 .f32) (main_arg7 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2x2048x2048 : Shape := ⟨3, ![2, 2048, 2048]⟩
abbrev S2x1x2048 : Shape := ⟨3, ![2, 1, 2048]⟩
abbrev S_ : Shape := ⟨0, ![]⟩
abbrev S128x2048 : Shape := ⟨2, ![128, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S512x2048 : Shape := ⟨2, ![512, 2048]⟩

abbrev nBuf : Space → Nat
  | .hbm => 37
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S4096x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S2048x2048, .bf16⟩
  | .hbm, ⟨16, _⟩ => ⟨S1x2048, .f32⟩
  | .hbm, ⟨17, _⟩ => ⟨S2x2048x2048, .f32⟩
  | .hbm, ⟨18, _⟩ => ⟨S2x1x2048, .f32⟩
  | .hbm, ⟨19, _⟩ => ⟨S_, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048x2048, .f32⟩
  | .hbm, ⟨31, _⟩ => ⟨S2048x2048, .f32⟩
  | .hbm, ⟨32, _⟩ => ⟨S2048, .f32⟩
  | .hbm, ⟨33, _⟩ => ⟨S2048, .f32⟩
  | .hbm, ⟨34, _⟩ => ⟨S2048x2048, .bf16⟩
  | .hbm, ⟨35, _⟩ => ⟨S1x2048, .f32⟩
  | .hbm, ⟨36, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S2048x2048, .bf16⟩
  | .local _ .vmem, ⟨16, _⟩ => ⟨S1x2048, .f32⟩
  | .local _ .vmem, ⟨17, _⟩ => ⟨S1x2048x2048, .f32⟩
  | .local _ .vmem, ⟨18, _⟩ => ⟨S1x1x2048, .f32⟩
  | .local _ .vmem, ⟨19, _⟩ => ⟨S512x2048, .f32⟩
  | .local _ .vmem, ⟨20, _⟩ => ⟨S512x2048, .f32⟩
  | .local _ .vmem, ⟨21, _⟩ => ⟨S2048x2048, .bf16⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4_0 : Ref sig .tc := ⟨.hbm, 12, rfl⟩
abbrev main_call0_v4_1 : Ref sig .tc := ⟨.hbm, 13, rfl⟩
abbrev main_call0_v4_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7_0 : Ref sig .tc := ⟨.hbm, 17, rfl⟩
abbrev main_call0_v7_1 : Ref sig .tc := ⟨.hbm, 18, rfl⟩
abbrev main_call0_cst : Ref sig .tc := ⟨.hbm, 19, rfl⟩
abbrev main_call0_v8 : Ref sig .tc := ⟨.hbm, 20, rfl⟩
abbrev main_call0_cst_0 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_cst_2 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x2048x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2048_S1x2048 : S2048.ShapeCasts S1x2048
  reducesTo_S2x2048x2048_S2048x2048_d0 : S2x2048x2048.ReducesTo [0] S2048x2048
  h_S_ : 0 < S_.numel
  bcast_S_S2048x2048 : S_.BroadcastsInDim S2048x2048 (![] : Fin 0 → Fin S2048x2048.rank)
  reducesTo_S2x1x2048_S1x2048_d0 : S2x1x2048.ReducesTo [0] S1x2048
  shapeCasts_S1x2048_S2048 : S1x2048.ShapeCasts S2048
  bcast_S_S2048 : S_.BroadcastsInDim S2048 (![] : Fin 0 → Fin S2048.rank)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S2048 : S256x2048.Reduces [0] S2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  dot_S128x2048_S2048x2048_S128x2048_1_0_0_1_n_n_wf : DotDims.WF S128x2048 S2048x2048 S128x2048 [1] [0] [0] [1] [] []
  dot_S256x2048_S2048x2048_S256x2048_1_1_0_0_n_n_wf : DotDims.WF S256x2048 S2048x2048 S256x2048 [1] [1] [0] [0] [] []
  dot_S256x2048_S256x2048_S2048x2048_0_0_1_1_n_n_wf : DotDims.WF S256x2048 S256x2048 S2048x2048 [0] [0] [1] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .f32 = 32 ∨ (Rect.block (s := S4096x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .f32 = 32 ∨ (Rect.block (s := S4096x2048) S128x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .f32 = 32 ∨ (Rect.block (s := S4096x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048x2048.size a ≤ S2x2048x2048.size a
  hwx1_4 : ∀ i : grid1.Coords, EltTy.bits .f32 = 32 ∨ (Rect.block (s := S2x2048x2048) S1x2048x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x2048.size a ≤ S2x1x2048.size a
  hwx1_5 : ∀ i : grid1.Coords, EltTy.bits .f32 = 32 ∨ (Rect.block (s := S2x1x2048) S1x1x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S256x2048_S2048x2048_0_0_1_1_n_n : DotDims S256x2048 S256x2048 S2048x2048 where
  lhsContracting := [0]
  rhsContracting := [0]
  lhsNonContracting := [1]
  rhsNonContracting := [1]
  lhsBatch := []
  rhsBatch := []
  wf := dot_S256x2048_S256x2048_S2048x2048_0_0_1_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_call0_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4_2) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v4_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7_0) S1x2048x2048.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7_1) S1x1x2048.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v4_2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v19) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v20) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x4096, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x2048, .f32⟩
  | .hbm, ⟨29, _⟩ => ⟨S2048x2048, .f32⟩
  | .hbm, ⟨30, _⟩ => ⟨S2048, .f32⟩
  | .hbm, ⟨31, _⟩ => ⟨S2048, .f32⟩
  | .hbm, ⟨32, _⟩ => ⟨S2048x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S4096x2048_S2048x4096_1_0 : S4096x2048.Transposes [1, 0] S2048x4096
  bcast_S_S2048x2048 : S_.BroadcastsInDim S2048x2048 (![] : Fin 0 → Fin S2048x2048.rank)
  reducesTo_S4096x2048_S2048_d0 : S4096x2048.ReducesTo [0] S2048
  h_S_ : 0 < S_.numel
  bcast_S_S2048 : S_.BroadcastsInDim S2048 (![] : Fin 0 → Fin S2048.rank)
  dot_S4096x2048_S2048x2048_S4096x2048_1_0_0_1_n_n_wf : DotDims.WF S4096x2048 S2048x2048 S4096x2048 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.Spec.lean ====
/-
  The specification: what both programs compute, as functions of the argument arrays over the extended reals,
  coordinate by coordinate. With rows r < 4096 and features j, k, p, q < 2048:

    train r j = ∑ k, src[r,k] · θk[k,j]        label r j = ∑ k, src[r,k] · θv[k,j]        test r j = ∑ k, src[r,k] · θq[k,j]
    err r j   = ((∑ k, train r k · W[j,k]) + b[j]) − (label r j − train r j)
    gW p q    = ∑ r, err r p · train r q         gb j = ∑ r, err r j
    W' p q    = W[p,q] − lr_w[p,q] · (coef · gW p q)        b' j = b[j] − lr_b[j] · (coef · gb j)
    out r j   = ((∑ k, test r k · W' j k) + b' j) + test r j

  The two programs differ only in how the sums over the 4096 rows are grouped: one of them adds the rows in
  consecutive blocks of 256, eight blocks to each half of the rows, each half from a zero, and then adds the two
  halves. Addition of extended reals is commutative and associative, so a sum over consecutive blocks is the sum
  over their union (`sum_Ico_block`, `Finset.sum_Ico_consecutive`); nothing here needs a value to be finite.
-/
import Idealize.ShloMosaic.PureOps.Ideal
import Idealize.ShloMosaic.Lib.ValueIdx

noncomputable section

open scoped BigOperators

namespace Cert.Spec

open Idealize.ShloMosaic Idealize.ShloMosaic.ValueIdx

/-! ## Sums over rows, cut into consecutive blocks -/

section Sums
variable {M : Type*} [AddCommMonoid M]

/-- A function of the rows below `N`, continued by zero to every natural number. -/
def ext {N : ℕ} (g : Fin N → M) (k : ℕ) : M := if h : k < N then g ⟨k, h⟩ else 0

theorem ext_of_lt {N : ℕ} (g : Fin N → M) {k : ℕ} (h : k < N) : ext g k = g ⟨k, h⟩ := dif_pos h

/-- The sum over all rows is the sum of the continuation over the naturals below `N`. -/
theorem sum_range_ext {N : ℕ} (g : Fin N → M) : ∑ k ∈ Finset.range N, ext g k = ∑ r : Fin N, g r := by
  rw [Finset.sum_range]
  exact Finset.sum_congr rfl fun r _ => ext_of_lt g r.isLt

/-- A block of `n` consecutive rows from row `a`: the sum over the block's own row index is the sum over the
    interval of rows it occupies. -/
theorem sum_Ico_block (f : ℕ → M) (a n : ℕ) : ∑ r : Fin n, f (a + r.val) = ∑ k ∈ Finset.Ico a (a + n), f k := by
  rw [Finset.sum_Ico_eq_sum_range, Nat.add_sub_cancel_left, Finset.sum_range]

end Sums

/-! ## The shapes -/

abbrev SBD : Shape := ⟨2, ![4096, 2048]⟩
abbrev SDD : Shape := ⟨2, ![2048, 2048]⟩
abbrev SD : Shape := ⟨1, ![2048]⟩

/-- The learning-rate scale 2 / (4096 · 2048) = 2⁻²², the same word in both programs (never evaluated). -/
abbrev coef : EReal := Ideal.ofBits .f32 0x34800000#32

/-! ## The result, coordinate by coordinate -/

/-- A projection of the rows: (A · B)[r, j]. -/
def proj (A : SBD.Idx → EReal) (B : SDD.Idx → EReal) (r : Fin 4096) (j : Fin 2048) : EReal :=
  ∑ k : Fin 2048, A (ix2 r k) * B (ix2 k j)

/-- The linear layer's prediction error at row `r`, feature `j`: (train · Wᵀ + b) − (label − train). -/
def err (train label : Fin 4096 → Fin 2048 → EReal) (W : SDD.Idx → EReal) (b : Fin 2048 → EReal)
    (r : Fin 4096) (j : Fin 2048) : EReal :=
  ((∑ k : Fin 2048, train r k * W (ix2 j k)) + b j) - (label r j - train r j)

/-- One term of the weight gradient's sum over rows. -/
def gWterm (e t : Fin 4096 → Fin 2048 → EReal) (p q : Fin 2048) (r : Fin 4096) : EReal := e r p * t r q

/-- The weight gradient before scaling: errᵀ · train. -/
def gW (e t : Fin 4096 → Fin 2048 → EReal) (p q : Fin 2048) : EReal := ∑ r : Fin 4096, gWterm e t p q r

/-- The bias gradient before scaling: the column sums of err. -/
def gb (e : Fin 4096 → Fin 2048 → EReal) (j : Fin 2048) : EReal := ∑ r : Fin 4096, e r j

/-- The updated weights. -/
def Wnew (W lrw : SDD.Idx → EReal) (g : Fin 2048 → Fin 2048 → EReal) (p q : Fin 2048) : EReal :=
  W (ix2 p q) - lrw (ix2 p q) * (coef * g p q)

/-- The updated bias. -/
def bnew (b lrb : Fin 2048 → EReal) (g : Fin 2048 → EReal) (j : Fin 2048) : EReal :=
  b j - lrb j * (coef * g j)

/-- The query through the updated layer, with the residual. -/
def query (test : Fin 4096 → Fin 2048 → EReal) (Wn : Fin 2048 → Fin 2048 → EReal) (bn : Fin 2048 → EReal)
    (r : Fin 4096) (j : Fin 2048) : EReal :=
  ((∑ k : Fin 2048, test r k * Wn j k) + bn j) + test r j

/-- The whole result as a function of the eight argument arrays. -/
def out (src : SBD.Idx → EReal) (θk θq θv W : SDD.Idx → EReal) (b : SD.Idx → EReal) (lrw : SDD.Idx → EReal)
    (lrb : SD.Idx → EReal) (r : Fin 4096) (j : Fin 2048) : EReal :=
  let train := proj src θk
  let label := proj src θv
  let test := proj src θq
  let e := err train label W (fun j => b (ix1 j))
  query test (Wnew W lrw (gW e train)) (bnew (fun j => b (ix1 j)) (fun j => lrb (ix1 j)) (gb e)) r j

end Cert.Spec

end
-- ==== Proof.KernelRun.lean ====
/-
  The whole program's run with its result named. @main is six segments — three stretches of host operations and
  the three kernel regions between them; every weakly fair execution runs them in order and terminates, and the final
  memory holds, at every buffer that outlives the regions, the contents the last boundary names. Read at the result
  buffer, that is the third region's result array; read at an argument, its launch contents.
-/
import proofs.«111646_j12223476924503_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.Between.lean ====
/-
  Between the kernel regions: what each region finds in the buffers it reads, as functions of the argument arrays.
  The host operations round the source, the three projection matrices and the weights (the identity on extended
  reals), view the bias as one row, and after the second region add the two halves of each gradient sum from zero,
  scale by 2⁻²², and take the per-entry descent step W − lr_w · (coef · gW), b − lr_b · (coef · gb). A buffer that a
  stretch of host operations or a region does not write keeps its contents.
-/
import proofs.«111646_j12223476924503_2_alg».proof.Proof.Gen.KernelIdeal.Frame
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx

namespace Cert.KernelIdeal.Between

open Cert.KernelIdeal Cert.KernelIdeal.Gen Idealize.ShloMosaic.StableHlo

variable (m : (ℓ : Loc nD τ sig) → Buf (Elt Ideal) ℓ) (ρ : Dev nD → PrngReg)

/-! ## Before the first region: the rounded operands -/

theorem v1_v0 (c : Dev nD) : (V1 m ρ c main_call0_v0 : FVec Ideal S4096x2048 .bf16) = (truncf .bf16 ((m ((c : Thread nD τ).loc main_arg0)) : FVec Ideal S4096x2048 .f32) bitsLt_bf16_f32 : FVec Ideal S4096x2048 .bf16) := by
  show StableHlo.after hostOps0 (W0 m ρ c) (Proc.devRef .tc main_call0_v0) = _
  after_results
  rfl

theorem v1_v1 (c : Dev nD) : (V1 m ρ c main_call0_v1 : FVec Ideal S2048x2048 .bf16) = (truncf .bf16 ((m ((c : Thread nD τ).loc main_arg1)) : FVec Ideal S2048x2048 .f32) bitsLt_bf16_f32 : FVec Ideal S2048x2048 .bf16) := by
  show StableHlo.after hostOps0 (W0 m ρ c) (Proc.devRef .tc main_call0_v1) = _
  after_results
  rfl

theorem v1_v2 (c : Dev nD) : (V1 m ρ c main_call0_v2 : FVec Ideal S2048x2048 .bf16) = (truncf .bf16 ((m ((c : Thread nD τ).loc main_arg2)) : FVec Ideal S2048x2048 .f32) bitsLt_bf16_f32 : FVec Ideal S2048x2048 .bf16) := by
  show StableHlo.after hostOps0 (W0 m ρ c) (Proc.devRef .tc main_call0_v2) = _
  after_results
  rfl

theorem v1_v3 (c : Dev nD) : (V1 m ρ c main_call0_v3 : FVec Ideal S2048x2048 .bf16) = (truncf .bf16 ((m ((c : Thread nD τ).loc main_arg3)) : FVec Ideal S2048x2048 .f32) bitsLt_bf16_f32 : FVec Ideal S2048x2048 .bf16) := by
  show StableHlo.after hostOps0 (W0 m ρ c) (Proc.devRef .tc main_call0_v3) = _
  after_results
  rfl

/-! ## An argument array is as launched at every boundary -/

theorem w2_arg4 (c : Dev nD) : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results

theorem w4_arg4 (c : Dev nD) : W4 m ρ c (Proc.devRef .tc main_arg4) = (m ((c : Thread nD τ).loc main_arg4)) := by
  rw [W4_of_ne m ρ c main_arg4 (by decide)]
  show StableHlo.after hostOps1 (W2 m ρ c) (Proc.devRef .tc main_arg4) = _
  after_results
  exact w2_arg4 m ρ c

theorem w2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results

theorem w4_arg5 (c : Dev nD) : W4 m ρ c (Proc.devRef .tc main_arg5) = (m ((c : Thread nD τ).loc main_arg5)) := by
  rw [W4_of_ne m ρ c main_arg5 (by decide)]
  show StableHlo.after hostOps1 (W2 m ρ c) (Proc.devRef .tc main_arg5) = _
  after_results
  exact w2_arg5 m ρ c

theorem w2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results

theorem w4_arg6 (c : Dev nD) : W4 m ρ c (Proc.devRef .tc main_arg6) = (m ((c : Thread nD τ).loc main_arg6)) := by
  rw [W4_of_ne m ρ c main_arg6 (by decide)]
  show StableHlo.after hostOps1 (W2 m ρ c) (Proc.devRef .tc main_arg6) = _
  after_results
  exact w2_arg6 m ρ c

theorem w2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results

theorem w4_arg7 (c : Dev nD) : W4 m ρ c (Proc.devRef .tc main_arg7) = (m ((c : Thread nD τ).loc main_arg7)) := by
  rw [W4_of_ne m ρ c main_arg7 (by decide)]
  show StableHlo.after hostOps1 (W2 m ρ c) (Proc.devRef .tc main_arg7) = _
  after_results
  exact w2_arg7 m ρ c

/-! ## Before the second region -/

theorem v3_train (c : Dev nD) : V3 m ρ c main_call0_v4_0 = (dat0 (V1 m ρ) c).arrAt 4 cfg0.N := by
  show StableHlo.after hostOps1 (W2 m ρ c) (Proc.devRef .tc main_call0_v4_0) = _
  after_results
  exact W2_arr m ρ c 4

theorem v3_label (c : Dev nD) : V3 m ρ c main_call0_v4_1 = (dat0 (V1 m ρ) c).arrAt 5 cfg0.N := by
  show StableHlo.after hostOps1 (W2 m ρ c) (Proc.devRef .tc main_call0_v4_1) = _
  after_results
  exact W2_arr m ρ c 5

theorem v3_w (c : Dev nD) : (V3 m ρ c main_call0_v5 : FVec Ideal S2048x2048 .bf16) = (truncf .bf16 ((m ((c : Thread nD τ).loc main_arg4)) : FVec Ideal S2048x2048 .f32) bitsLt_bf16_f32 : FVec Ideal S2048x2048 .bf16) := by
  show StableHlo.after hostOps1 (W2 m ρ c) (Proc.devRef .tc main_call0_v5) = _
  after_results
  rw [w2_arg4]
  rfl

theorem v3_b (c : Dev nD) : (V3 m ρ c main_call0_v6 : FVec Ideal S1x2048 .f32)
    = shapeCast S1x2048 ((m ((c : Thread nD τ).loc main_arg5)) : FVec Ideal S2048 .f32) shapeCasts_S2048_S1x2048 := by
  show StableHlo.after hostOps1 (W2 m ρ c) (Proc.devRef .tc main_call0_v6) = _
  after_results
  rw [w2_arg5]
  rfl

/-! ## Before the third region -/

theorem v5_test (c : Dev nD) : V5 m ρ c main_call0_v4_2 = (dat0 (V1 m ρ) c).arrAt 6 cfg0.N := by
  show StableHlo.after hostOps2 (W4 m ρ c) (Proc.devRef .tc main_call0_v4_2) = _
  after_results
  rw [W4_of_ne m ρ c main_call0_v4_2 (by decide)]
  show StableHlo.after hostOps1 (W2 m ρ c) (Proc.devRef .tc main_call0_v4_2) = _
  after_results
  exact W2_arr m ρ c 6

set_option maxHeartbeats 1000000 in
/-- The updated weights, rounded: W − lr_w · (coef · (0 + the two halves of the weight-gradient sum)). -/
theorem v5_wn (c : Dev nD) : (V5 m ρ c main_call0_v19 : FVec Ideal S2048x2048 .bf16)
    = truncf .bf16 (subf ((m ((c : Thread nD τ).loc main_arg4)) : FVec Ideal S2048x2048 .f32)
        (mulf ((m ((c : Thread nD τ).loc main_arg6)) : FVec Ideal S2048x2048 .f32)
          (mulf (broadcastInDim S2048x2048 ![] bcast_S_S2048x2048 (constant (F := Ideal) S_ .f32 0x34800000#32))
            (Host.reduceAdd (F := Ideal) ((dat1 (V3 m ρ) c).arrAt 4 cfg1.N) (constant (F := Ideal) S_ .f32 0x00000000#32) reducesTo_S2x2048x2048_S2048x2048_d0 h_S_)))) bitsLt_bf16_f32 := by
  show StableHlo.after hostOps2 (W4 m ρ c) (Proc.devRef .tc main_call0_v19) = _
  after_results_simp
  rw [w4_arg4, w4_arg6, W4_arr m ρ c 4]
  rfl

set_option maxHeartbeats 1000000 in
/-- The updated bias as one row: b − lr_b · (coef · (0 + the two halves of the bias-gradient sum)). -/
theorem v5_bn (c : Dev nD) : (V5 m ρ c main_call0_v20 : FVec Ideal S1x2048 .f32)
    = shapeCast S1x2048 (subf ((m ((c : Thread nD τ).loc main_arg5)) : FVec Ideal S2048 .f32)
        (mulf ((m ((c : Thread nD τ).loc main_arg7)) : FVec Ideal S2048 .f32)
          (mulf (broadcastInDim S2048 ![] bcast_S_S2048 (constant (F := Ideal) S_ .f32 0x34800000#32))
            (shapeCast S2048 (Host.reduceAdd (F := Ideal) ((dat1 (V3 m ρ) c).arrAt 5 cfg1.N) (constant (F := Ideal) S_ .f32 0x00000000#32) reducesTo_S2x1x2048_S1x2048_d0 h_S_) shapeCasts_S1x2048_S2048)))) shapeCasts_S2048_S1x2048 := by
  show StableHlo.after hostOps2 (W4 m ρ c) (Proc.devRef .tc main_call0_v20) = _
  after_results_simp
  rw [w4_arg5, w4_arg7, W4_arr m ρ c 5]
  rfl

/-- The result buffer at the end is the third region's result array. -/
theorem w6_result (c : Dev nD) : W6 m ρ c (Proc.devRef .tc main_v0) = (dat2 (V5 m ρ) c).arrAt 3 cfg2.N :=
  W6_arr m ρ c 3

end Cert.KernelIdeal.Between

end
-- ==== Proof.MatmulAt.lean ====
/-
  The kernel's four matrix products, each read at one entry of its result over the extended reals. Into a zero
  accumulator a matrix product is the plain sum, over the one contracted axis, of the products of the two operands'
  entries; which coordinate of each operand the contracted index fills is read off the product's dimension numbers:

    rows · weights          (x · w)[p,q]   = ∑ k, x[p,k] · w[k,q]      (128 rows of src against a projection matrix)
    rows · weightsᵀ         (x · wᵀ)[p,q]  = ∑ k, x[p,k] · w[q,k]      (256 or 512 rows against the layer's weights)
    errᵀ · rows             (eᵀ · x)[p,q]  = ∑ r, e[r,p] · x[r,q]      (a block of 256 rows' share of the weight gradient)
-/
import proofs.«111646_j12223476924503_2_alg».proof.Proof.Gen.KernelIdeal
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.MatmulAt

open Cert.KernelIdeal Cert.KernelIdeal.Gen

/-- A block of 128 rows against a projection matrix: entry (p, q) sums row p of the block against column q of the matrix. -/
theorem rows_weights_lhs_keep (i : S128x2048.Idx) (κ : dot_S128x2048_S2048x2048_S128x2048_1_0_0_1_n_n.contr.Idx) :
    (dot_S128x2048_S2048x2048_S128x2048_1_0_0_1_n_n.lhsIdx i κ 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem rows_weights_rhs_keep (i : S128x2048.Idx) (κ : dot_S128x2048_S2048x2048_S128x2048_1_0_0_1_n_n.contr.Idx) :
    (dot_S128x2048_S2048x2048_S128x2048_1_0_0_1_n_n.rhsIdx i κ 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl
theorem rows_weights (x : FVec Ideal S128x2048 .bf16) (w : FVec Ideal S2048x2048 .bf16) (p : Fin 128) (q : Fin 2048) :
    matmul dot_S128x2048_S2048x2048_S128x2048_1_0_0_1_n_n none x w (constant (F := Ideal) S128x2048 .f32 0x00000000#32) (ix2 p q)
      = ∑ k : Fin 2048, x (ix2 p k) * w (ix2 k q) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun a => Fin.ext (by
    match a with
    | ⟨0, _⟩ => exact rows_weights_lhs_keep _ _
    | ⟨1, _⟩ => exact (dot_S128x2048_S2048x2048_S128x2048_1_0_0_1_n_n.lhsIdx_val_of_single rfl _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun a => Fin.ext (by
    match a with
    | ⟨1, _⟩ => exact rows_weights_rhs_keep _ _
    | ⟨0, _⟩ => exact (dot_S128x2048_S2048x2048_S128x2048_1_0_0_1_n_n.rhsIdx_val_of_single rfl _ _).trans hk)
  rw [el, er]

/-- A block of 256 rows against the TRANSPOSE of the layer's weights: entry (p, q) sums row p of the block against row q of the weights. -/
theorem rows256_weightsT_lhs_keep (i : S256x2048.Idx) (κ : dot_S256x2048_S2048x2048_S256x2048_1_1_0_0_n_n.contr.Idx) :
    (dot_S256x2048_S2048x2048_S256x2048_1_1_0_0_n_n.lhsIdx i κ 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem rows256_weightsT_rhs_keep (i : S256x2048.Idx) (κ : dot_S256x2048_S2048x2048_S256x2048_1_1_0_0_n_n.contr.Idx) :
    (dot_S256x2048_S2048x2048_S256x2048_1_1_0_0_n_n.rhsIdx i κ 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rows256_weightsT (x : FVec Ideal S256x2048 .bf16) (w : FVec Ideal S2048x2048 .bf16) (p : Fin 256) (q : Fin 2048) :
    matmul dot_S256x2048_S2048x2048_S256x2048_1_1_0_0_n_n none x w (constant (F := Ideal) S256x2048 .f32 0x00000000#32) (ix2 p q)
      = ∑ k : Fin 2048, x (ix2 p k) * w (ix2 q k) := by
  simp only [matmul]
  rw [Ideal.matmul_constant_zero_apply, ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p q) ((contrEquiv1 dot_S256x2048_S2048x2048_S256x2048_1_1_0_0_n_n 2048 rfl rfl).symm k) = ix2 p k := funext fun a => Fin.ext (by
    match a with
    | ⟨0, _⟩ => exact rows256_weightsT_lhs_keep _ _
    | ⟨1, _⟩ => exact (dot_S256x2048_S2048x2048_S256x2048_1_1_0_0_n_n.lhsIdx_val_of_single rfl _ _).trans hk)
  have er : dot_S256x2048_S2048x2048_S256x2048_1_1_0_0_n_n.rhsIdx (ix2 p q) ((contrEquiv1 dot_S256x2048_S2048x2048_S256x2048_1_1_0_0_n_n 2048 rfl rfl).symm k) = ix2 q k := funext fun a => Fin.ext (by
    match a with
    | ⟨0, _⟩ => exact rows256_weightsT_rhs_keep _ _
    | ⟨1, _⟩ => exact (dot_S256x2048_S2048x2048_S256x2048_1_1_0_0_n_n.rhsIdx_val_of_single rfl _ _).trans hk)
  rw [el, er]

/-- The transpose of a block of 256 error rows against the same 256 rows of train: entry (p, q) sums, over the block's rows r, err[r, p] · train[r, q]. -/
theorem errT_rows_lhs_keep (i : S2048x2048.Idx) (κ : dot_S256x2048_S256x2048_S2048x2048_0_0_1_1_n_n.contr.Idx) :
    (dot_S256x2048_S256x2048_S2048x2048_0_0_1_1_n_n.lhsIdx i κ 1).val = (i 0).val := by
  unfold DotDims.lhsIdx
  rw [dif_neg (show ¬(1 : Fin S256x2048.rank) ∈ dot_S256x2048_S256x2048_S2048x2048_0_0_1_1_n_n.lhsBatch by decide), dif_pos (show (1 : Fin S256x2048.rank) ∈ dot_S256x2048_S256x2048_S2048x2048_0_0_1_1_n_n.lhsNonContracting by decide)]
  rfl
theorem errT_rows_rhs_keep (i : S2048x2048.Idx) (κ : dot_S256x2048_S256x2048_S2048x2048_0_0_1_1_n_n.contr.Idx) :
    (dot_S256x2048_S256x2048_S2048x2048_0_0_1_1_n_n.rhsIdx i κ 1).val = (i 1).val := by
  unfold DotDims.rhsIdx
  rw [dif_neg (show ¬(1 : Fin S256x2048.rank) ∈ dot_S256x2048_S256x2048_S2048x2048_0_0_1_1_n_n.rhsBatch by decide), dif_pos (show (1 : Fin S256x2048.rank) ∈ dot_S256x2048_S256x2048_S2048x2048_0_0_1_1_n_n.rhsNonContracting by decide)]
  rfl
theorem errT_rows (x : FVec Ideal S256x2048 .bf16) (w : FVec Ideal S256x2048 .bf16) (p : Fin 2048) (q : Fin 2048) :
    matmul dot_S256x2048_S256x2048_S2048x2048_0_0_1_1_n_n none x w (constant (F := Ideal) S2048x2048 .f32 0x00000000#32) (ix2 p q)
      = ∑ k : Fin 256, x (ix2 k p) * w (ix2 k q) := by
  simp only [matmul]
  rw [Ideal.matmul_constant_zero_apply, ← Equiv.sum_comp (contrEquiv1 dot_S256x2048_S256x2048_S2048x2048_0_0_1_1_n_n 256 rfl rfl).symm]
  refine Finset.sum_congr rfl fun k _ => ?_
  have hk := contrEquiv1_symm_val dot_S256x2048_S256x2048_S2048x2048_0_0_1_1_n_n 256 rfl rfl k
  have el : dot_S256x2048_S256x2048_S2048x2048_0_0_1_1_n_n.lhsIdx (ix2 p q) ((contrEquiv1 dot_S256x2048_S256x2048_S2048x2048_0_0_1_1_n_n 256 rfl rfl).symm k) = ix2 k p := funext fun a => Fin.ext (by
    match a with
    | ⟨1, _⟩ => exact errT_rows_lhs_keep _ _
    | ⟨0, _⟩ => exact (dot_S256x2048_S256x2048_S2048x2048_0_0_1_1_n_n.lhsIdx_val_of_single rfl _ _).trans hk)
  have er : dot_S256x2048_S256x2048_S2048x2048_0_0_1_1_n_n.rhsIdx (ix2 p q) ((contrEquiv1 dot_S256x2048_S256x2048_S2048x2048_0_0_1_1_n_n 256 rfl rfl).symm k) = ix2 k q := funext fun a => Fin.ext (by
    match a with
    | ⟨1, _⟩ => exact errT_rows_rhs_keep _ _
    | ⟨0, _⟩ => exact (dot_S256x2048_S256x2048_S2048x2048_0_0_1_1_n_n.rhsIdx_val_of_single rfl _ _).trans hk)
  rw [el, er]

/-- A block of 512 rows against the TRANSPOSE of the updated weights: entry (p, q) sums row p of the block against row q of the weights. -/
theorem rows512_weightsT_lhs_keep (i : S512x2048.Idx) (κ : dot_S512x2048_S2048x2048_S512x2048_1_1_0_0_n_n.contr.Idx) :
    (dot_S512x2048_S2048x2048_S512x2048_1_1_0_0_n_n.lhsIdx i κ 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem rows512_weightsT_rhs_keep (i : S512x2048.Idx) (κ : dot_S512x2048_S2048x2048_S512x2048_1_1_0_0_n_n.contr.Idx) :
    (dot_S512x2048_S2048x2048_S512x2048_1_1_0_0_n_n.rhsIdx i κ 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rows512_weightsT (x : FVec Ideal S512x2048 .bf16) (w : FVec Ideal S2048x2048 .bf16) (p : Fin 512) (q : Fin 2048) :
    matmul dot_S512x2048_S2048x2048_S512x2048_1_1_0_0_n_n none x w (constant (F := Ideal) S512x2048 .f32 0x00000000#32) (ix2 p q)
      = ∑ k : Fin 2048, x (ix2 p k) * w (ix2 q k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact rows512_weightsT_lhs_keep _ _
    | ⟨1, _⟩ => exact (dot_S512x2048_S2048x2048_S512x2048_1_1_0_0_n_n.lhsIdx_val_of_single rfl _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rows512_weightsT_rhs_keep _ _
    | ⟨1, _⟩ => exact (dot_S512x2048_S2048x2048_S512x2048_1_1_0_0_n_n.rhsIdx_val_of_single rfl _ _).trans hk)
  rw [el, er]

end Cert.KernelIdeal.MatmulAt

end
-- ==== Proof.Proj.lean ====
/-
  The first kernel region: three projections of the rows. Each grid point t stages rows [128 t, 128 t + 128) of the
  (rounded) source and the three whole projection matrices, and writes back the 128 × 2048 block of each product;
  the 32 blocks tile the 4096 rows, so each result array ends as the whole product, entry by entry
  (Spec.proj): result[r, j] = ∑ k, src[r, k] · θ[k, j].
-/
import proofs.«111646_j12223476924503_2_alg».proof.Proof.Gen.KernelIdeal.Frame
import proofs.«111646_j12223476924503_2_alg».proof.Proof.MatmulAt
import proofs.«111646_j12223476924503_2_alg».proof.Proof.Spec
import Idealize.ShloMosaic.Lib.Pipeline.Value

noncomputable section

open scoped BigOperators
open Idealize.ShloMosaic Idealize.ShloMosaic.TcCoe Idealize.SL.Sem Idealize.ShloMosaic.ValueIdx

namespace Cert.KernelIdeal.ProjValue

open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product array: entry (r, j) of rows · matrix. -/
abbrev prod (A : S4096x2048.Idx → EReal) (B : S2048x2048.Idx → EReal) : S4096x2048.Idx → EReal :=
  fun i => proj A B (i 0) (i 1)

/-! ## Output window 4: the rows against the matrix of window 1 -/

/-- The body's stored value for this window at an entry of the block: row (y 0) of the staged rows against column (y 1). -/
theorem pay4_at (x0 : FVec Ideal S128x2048 .bf16) (x1 : FVec Ideal S2048x2048 .bf16) (y : S128x2048.Idx) :
    k0_pay2 (F := Ideal) x0 x1 y = (∑ k : Fin 2048, x0 (ix2 (y 0) k) * x1 (ix2 k (y 1)) : EReal) := by
  obtain ⟨p, q, rfl⟩ : ∃ (p : Fin 128) (q : Fin 2048), y = ix2 p q := ⟨y 0, y 1, eq_ix2 y⟩
  unfold k0_pay2 k0_pay1
  dsimp only
  rw [shapeCast_self, shapeCast_self]
  exact MatmulAt.rows_weights x0 x1 p q

/-- The printed index maps over the grid: the rows' window and this output window move together along the rows and
    stay at column block 0; the matrix's window stays at block (0, 0). -/
theorem idx_facts4 : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0 :=
  (by decide +kernel : ∀ t : Fin grid0.N, _)

/-- Every row block is some point's. -/
theorem idx_onto4 : ∀ q0 : Fin 32, ∃ t : Fin cfg0.N, win0_4.index t = ![q0.val, 0] :=
  (by decide +kernel : ∀ q0 : Fin 32, ∃ t : Fin grid0.N, win0_4.index t = ![q0.val, 0])

/-- What point t writes back is block t of the product of the arrays as the region finds them. -/
theorem flushed4_eq (c : Dev nD) (t : Fin cfg0.N) :
    (dat0 V c).flushed 4 t = ((cfg0.win 4).blk t).view.read (Elt Ideal) (prod (V c main_call0_v0) (V c main_call0_v1)) := by
  show (cfg0.win 4).cut (grid0.coords t) ((dat0 V c).after 4 t) = _
  rw [after0_4]
  unfold out0_4
  rw [View.canon_unit_zero hz]
  simp only [View.ld_unit_zero (S := S128x2048) hz, View.ld_unit_zero (S := S2048x2048) hz]
  obtain ⟨e0, e1, e2, e3, e4⟩ := idx_facts4 t
  funext j
  show k0_pay2 (F := Ideal) (iblk0 V c 0 t) (iblk0 V c 1 t) j = prod (V c main_call0_v0) (V c main_call0_v1) (((cfg0.win 4).blk t).view.emb j)
  refine (pay4_at _ _ j).trans ?_
  unfold prod proj
  refine Finset.sum_congr rfl fun k _ => ?_
  have h0 : iblk0 V c 0 t (ix2 (j 0) k) = V c main_call0_v0 (ix2 (((cfg0.win 4).blk t).view.emb j 0) k) := by
    unfold iblk0
    rw [View.read_apply]
    show V c main_call0_v0 (((cfg0.win 0).blk t).view.emb (ix2 (j 0) k)) = _
    refine congrArg (V c main_call0_v0) (funext fun a => Fin.ext ?_)
    match a with
    | ⟨0, _⟩ => show win0_0.index t (0 : Fin 2) * 128 + 1 * (j 0).val = win0_4.index t (0 : Fin 2) * 128 + 1 * (j 0).val; omega
    | ⟨1, _⟩ => show win0_0.index t (1 : Fin 2) * 2048 + 1 * k.val = k.val; omega
  have h1 : iblk0 V c 1 t (ix2 k (j 1)) = V c main_call0_v1 (ix2 k (((cfg0.win 4).blk t).view.emb j 1)) := by
    unfold iblk0
    rw [View.read_apply]
    show V c main_call0_v1 (((cfg0.win 1).blk t).view.emb (ix2 k (j 1))) = _
    refine congrArg (V c main_call0_v1) (funext fun a => Fin.ext ?_)
    match a with
    | ⟨0, _⟩ => show win0_1.index t (0 : Fin 2) * 2048 + 1 * k.val = k.val; omega
    | ⟨1, _⟩ => show win0_1.index t (1 : Fin 2) * 2048 + 1 * (j 1).val = win0_4.index t (1 : Fin 2) * 2048 + 1 * (j 1).val; omega
  rw [h0, h1]

/-- An entry of the array is in point t's block iff each coordinate is in the block's range on its axis. -/
theorem mem_blk4 (t : Fin cfg0.N) (i : S4096x2048.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_call0_v4_0).slice (win0_4.rect t)).set ↔ _
  rw [View.set_slice_whole, Rect.mem_set_unit]
  exact Iff.rfl

/-- Row r lies in the block of the point whose row block is r / 128: the 32 blocks tile the array. -/
theorem cover4 (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := idx_onto4 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

/-- The array after the region: the whole product. -/
theorem final4 (c : Dev nD) : (dat0 V c).arrAt 4 cfg0.N = prod (V c main_call0_v0) (V c main_call0_v1) :=
  (dat0 V c).arrAt_eq_of_cover 4 _ (fun t _ => flushed4_eq V c t) cover4

/-! ## Output window 5: the rows against the matrix of window 2 -/

/-- The body's stored value for this window at an entry of the block: row (y 0) of the staged rows against column (y 1). -/
theorem pay5_at (x0 : FVec Ideal S128x2048 .bf16) (x1 : FVec Ideal S2048x2048 .bf16) (y : S128x2048.Idx) :
    k0_pay3 (F := Ideal) x0 x1 y = (∑ k : Fin 2048, x0 (ix2 (y 0) k) * x1 (ix2 k (y 1)) : EReal) := by
  obtain ⟨p, q, rfl⟩ : ∃ (p : Fin 128) (q : Fin 2048), y = ix2 p q := ⟨y 0, y 1, eq_ix2 y⟩
  unfold k0_pay3 k0_pay1
  dsimp only
  rw [shapeCast_self, shapeCast_self]
  exact MatmulAt.rows_weights x0 x1 p q

/-- The printed index maps over the grid: the rows' window and this output window move together along the rows and
    stay at column block 0; the matrix's window stays at block (0, 0). -/
theorem idx_facts5 : ∀ t : Fin cfg0.N, win0_0.index t (0 : Fin 2) = win0_5.index t (0 : Fin 2)
    ∧ win0_0.index t (1 : Fin 2) = 0 ∧ win0_5.index t (1 : Fin 2) = 0
    ∧ win0_2.index t (0 : Fin 2) = 0 ∧ win0_2.index t (1 : Fin 2) = 0 :=
  (by decide +kernel : ∀ t : Fin grid0.N, _)

/-- Every row block is some point's. -/
theorem idx_onto5 : ∀ q0 : Fin 32, ∃ t : Fin cfg0.N, win0_5.index t = ![q0.val, 0] :=
  (by decide +kernel : ∀ q0 : Fin 32, ∃ t : Fin grid0.N, win0_5.index t = ![q0.val, 0])

/-- What point t writes back is block t of the product of the arrays as the region finds them. -/
theorem flushed5_eq (c : Dev nD) (t : Fin cfg0.N) :
    (dat0 V c).flushed 5 t = ((cfg0.win 5).blk t).view.read (Elt Ideal) (prod (V c main_call0_v0) (V c main_call0_v3)) := by
  show (cfg0.win 5).cut (grid0.coords t) ((dat0 V c).after 5 t) = _
  rw [after0_5]
  unfold out0_5
  rw [View.canon_unit_zero hz]
  simp only [View.ld_unit_zero (S := S128x2048) hz, View.ld_unit_zero (S := S2048x2048) hz]
  obtain ⟨e0, e1, e2, e3, e4⟩ := idx_facts5 t
  funext j
  show k0_pay3 (F := Ideal) (iblk0 V c 0 t) (iblk0 V c 2 t) j = prod (V c main_call0_v0) (V c main_call0_v3) (((cfg0.win 5).blk t).view.emb j)
  refine (pay5_at _ _ j).trans ?_
  unfold prod proj
  refine Finset.sum_congr rfl fun k _ => ?_
  have h0 : iblk0 V c 0 t (ix2 (j 0) k) = V c main_call0_v0 (ix2 (((cfg0.win 5).blk t).view.emb j 0) k) := by
    unfold iblk0
    rw [View.read_apply]
    show V c main_call0_v0 (((cfg0.win 0).blk t).view.emb (ix2 (j 0) k)) = _
    refine congrArg (V c main_call0_v0) (funext fun a => Fin.ext ?_)
    match a with
    | ⟨0, _⟩ => show win0_0.index t (0 : Fin 2) * 128 + 1 * (j 0).val = win0_5.index t (0 : Fin 2) * 128 + 1 * (j 0).val; omega
    | ⟨1, _⟩ => show win0_0.index t (1 : Fin 2) * 2048 + 1 * k.val = k.val; omega
  have h1 : iblk0 V c 2 t (ix2 k (j 1)) = V c main_call0_v3 (ix2 k (((cfg0.win 5).blk t).view.emb j 1)) := by
    unfold iblk0
    rw [View.read_apply]
    show V c main_call0_v3 (((cfg0.win 2).blk t).view.emb (ix2 k (j 1))) = _
    refine congrArg (V c main_call0_v3) (funext fun a => Fin.ext ?_)
    match a with
    | ⟨0, _⟩ => show win0_2.index t (0 : Fin 2) * 2048 + 1 * k.val = k.val; omega
    | ⟨1, _⟩ => show win0_2.index t (1 : Fin 2) * 2048 + 1 * (j 1).val = win0_5.index t (1 : Fin 2) * 2048 + 1 * (j 1).val; omega
  rw [h0, h1]

/-- An entry of the array is in point t's block iff each coordinate is in the block's range on its axis. -/
theorem mem_blk5 (t : Fin cfg0.N) (i : S4096x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_call0_v4_1).slice (win0_5.rect t)).set ↔ _
  rw [View.set_slice_whole, Rect.mem_set_unit]
  exact Iff.rfl

/-- Row r lies in the block of the point whose row block is r / 128: the 32 blocks tile the array. -/
theorem cover5 (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := idx_onto5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- The array after the region: the whole product. -/
theorem final5 (c : Dev nD) : (dat0 V c).arrAt 5 cfg0.N = prod (V c main_call0_v0) (V c main_call0_v3) :=
  (dat0 V c).arrAt_eq_of_cover 5 _ (fun t _ => flushed5_eq V c t) cover5

/-! ## Output window 6: the rows against the matrix of window 3 -/

/-- The body's stored value for this window at an entry of the block: row (y 0) of the staged rows against column (y 1). -/
theorem pay6_at (x0 : FVec Ideal S128x2048 .bf16) (x1 : FVec Ideal S2048x2048 .bf16) (y : S128x2048.Idx) :
    k0_pay4 (F := Ideal) x0 x1 y = (∑ k : Fin 2048, x0 (ix2 (y 0) k) * x1 (ix2 k (y 1)) : EReal) := by
  obtain ⟨p, q, rfl⟩ : ∃ (p : Fin 128) (q : Fin 2048), y = ix2 p q := ⟨y 0, y 1, eq_ix2 y⟩
  unfold k0_pay4 k0_pay1
  dsimp only
  rw [shapeCast_self, shapeCast_self]
  exact MatmulAt.rows_weights x0 x1 p q

/-- The printed index maps over the grid: the rows' window and this output window move together along the rows and
    stay at column block 0; the matrix's window stays at block (0, 0). -/
theorem idx_facts6 : ∀ t : Fin cfg0.N, win0_0.index t (0 : Fin 2) = win0_6.index t (0 : Fin 2)
    ∧ win0_0.index t (1 : Fin 2) = 0 ∧ win0_6.index t (1 : Fin 2) = 0
    ∧ win0_3.index t (0 : Fin 2) = 0 ∧ win0_3.index t (1 : Fin 2) = 0 :=
  (by decide +kernel : ∀ t : Fin grid0.N, _)

/-- Every row block is some point's. -/
theorem idx_onto6 : ∀ q0 : Fin 32, ∃ t : Fin cfg0.N, win0_6.index t = ![q0.val, 0] :=
  (by decide +kernel : ∀ q0 : Fin 32, ∃ t : Fin grid0.N, win0_6.index t = ![q0.val, 0])

/-- What point t writes back is block t of the product of the arrays as the region finds them. -/
theorem flushed6_eq (c : Dev nD) (t : Fin cfg0.N) :
    (dat0 V c).flushed 6 t = ((cfg0.win 6).blk t).view.read (Elt Ideal) (prod (V c main_call0_v0) (V c main_call0_v2)) := by
  show (cfg0.win 6).cut (grid0.coords t) ((dat0 V c).after 6 t) = _
  rw [after0_6]
  unfold out0_6
  rw [View.canon_unit_zero hz]
  simp only [View.ld_unit_zero (S := S128x2048) hz, View.ld_unit_zero (S := S2048x2048) hz]
  obtain ⟨e0, e1, e2, e3, e4⟩ := idx_facts6 t
  funext j
  show k0_pay4 (F := Ideal) (iblk0 V c 0 t) (iblk0 V c 3 t) j = prod (V c main_call0_v0) (V c main_call0_v2) (((cfg0.win 6).blk t).view.emb j)
  refine (pay6_at _ _ j).trans ?_
  unfold prod proj
  refine Finset.sum_congr rfl fun k _ => ?_
  have h0 : iblk0 V c 0 t (ix2 (j 0) k) = V c main_call0_v0 (ix2 (((cfg0.win 6).blk t).view.emb j 0) k) := by
    unfold iblk0
    rw [View.read_apply]
    show V c main_call0_v0 (((cfg0.win 0).blk t).view.emb (ix2 (j 0) k)) = _
    refine congrArg (V c main_call0_v0) (funext fun a => Fin.ext ?_)
    match a with
    | ⟨0, _⟩ => show win0_0.index t (0 : Fin 2) * 128 + 1 * (j 0).val = win0_6.index t (0 : Fin 2) * 128 + 1 * (j 0).val; omega
    | ⟨1, _⟩ => show win0_0.index t (1 : Fin 2) * 2048 + 1 * k.val = k.val; omega
  have h1 : iblk0 V c 3 t (ix2 k (j 1)) = V c main_call0_v2 (ix2 k (((cfg0.win 6).blk t).view.emb j 1)) := by
    unfold iblk0
    rw [View.read_apply]
    show V c main_call0_v2 (((cfg0.win 3).blk t).view.emb (ix2 k (j 1))) = _
    refine congrArg (V c main_call0_v2) (funext fun a => Fin.ext ?_)
    match a with
    | ⟨0, _⟩ => show win0_3.index t (0 : Fin 2) * 2048 + 1 * k.val = k.val; omega
    | ⟨1, _⟩ => show win0_3.index t (1 : Fin 2) * 2048 + 1 * (j 1).val = win0_6.index t (1 : Fin 2) * 2048 + 1 * (j 1).val; omega
  rw [h0, h1]

/-- An entry of the array is in point t's block iff each coordinate is in the block's range on its axis. -/
theorem mem_blk6 (t : Fin cfg0.N) (i : S4096x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_call0_v4_2).slice (win0_6.rect t)).set ↔ _
  rw [View.set_slice_whole, Rect.mem_set_unit]
  exact Iff.rfl

/-- Row r lies in the block of the point whose row block is r / 128: the 32 blocks tile the array. -/
theorem cover6 (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto6 ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

/-- The array after the region: the whole product. -/
theorem final6 (c : Dev nD) : (dat0 V c).arrAt 6 cfg0.N = prod (V c main_call0_v0) (V c main_call0_v2) :=
  (dat0 V c).arrAt_eq_of_cover 6 _ (fun t _ => flushed6_eq V c t) cover6

end Cert.KernelIdeal.ProjValue

end
-- ==== Proof.GradPieces.lean ====
/-
  The second kernel region's two accumulators, point by point. The region's body resets both accumulators at the
  first point of each half of the rows and then, at every point, adds the block's share onto them. What the body
  leaves in each accumulator's buffer is therefore one of two things:

    at the first point of a half      the accumulate step applied to the zero block it has just stored and read back;
    at every other point              the accumulate step applied to what the point before left.

  These four equations (two accumulators, two cases) hold for any float values.
-/
import proofs.«111646_j12223476924503_2_alg».proof.Proof.Gen.KernelIdeal.Frame
import Idealize.ShloMosaic.Lib.Pipeline.Value
import Idealize.ShloMosaic.Lib.Tactic
import Idealize.ShloMosaic.Lib.ValueIdx

noncomputable section

open scoped BigOperators
open Idealize.ShloMosaic Idealize.ShloMosaic.TcCoe Idealize.SL.Sem Idealize.ShloMosaic.ValueIdx

namespace Cert.KernelIdeal.GradPieces

open Cert.KernelIdeal Cert.KernelIdeal.Gen Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point of a half, the body leaves in the weight-gradient accumulator what the last store wrote:
    the accumulate step over the contents the point before left. -/
theorem outB4 (c : Dev nD) (i : grid1.Coords) (a2 : Memref sig .tc .vmem S256x2048 .f32) (h2 : a2.IsWhole) (a3 : Memref sig .tc .vmem S256x2048 .f32) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : ¬cond1_0 i) (x0 : Vec F S256x2048 .f32) (x1 : Vec F S256x2048 .f32) (x2 : Vec F S2048x2048 .bf16) (x3 : Vec F S1x2048 .f32) (xo4 : Vec F S1x2048x2048 .f32) (xo5 : Vec F S1x1x2048 .f32) :
    out1_B_4 c i a2 h2 a3 h3 a4 h4 a5 h5 a6 h6 a7 h7 hc x0 x1 x2 x3 xo4 xo5 = k1_pay7 x0 x1 x2 x3 xo4 := by
  unfold out1_B_4
  rw [View.read_writes_eq_canon _ _ _ (cover1_B_4 c i a2 h2 a3 h3 a4 h4 a5 h5 a6 h6 a7 h7 hc x0 x1 x2 x3 xo4 xo5)]
  unfold kernelRun1_B
  dsimp only
  rw [View.canon_unit_zero hz3]
  simp only [View.readAt_eq_ld, h2.read_unread, h3.read_unread, h4.read_unread, h5.read_unread, h6.read_unread, h7.read_unread, View.ld_unit_zero (S := S256x2048) hz2, View.ld_unit_zero (S := S2048x2048) hz2, View.ld_unit_zero (S := S1x2048) hz2, View.ld_unit_zero (S := S1x2048x2048) hz3, View.ld_unit_zero (S := S1x1x2048) hz3]

/-- At the first point of a half the body first stores the zero block, reads it back, and accumulates onto it. -/
theorem outA4 (c : Dev nD) (i : grid1.Coords) (a2 : Memref sig .tc .vmem S256x2048 .f32) (h2 : a2.IsWhole) (a3 : Memref sig .tc .vmem S256x2048 .f32) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : cond1_0 i) (x0 : Vec F S256x2048 .f32) (x1 : Vec F S256x2048 .f32) (x2 : Vec F S2048x2048 .bf16) (x3 : Vec F S1x2048 .f32) :
    out1_A_4 c i a2 h2 a3 h3 a4 h4 a5 h5 a6 h6 a7 h7 hc x0 x1 x2 x3 = k1_pay7 x0 x1 x2 x3 (k1_pay2 (F := F)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S1x2048x2048) hz3, View.readCov_unit_zero (S := S1x2048x2048) _ hz3]
  simp only [View.readAt_eq_ld, h2.read_unread, h3.read_unread, h4.read_unread, h5.read_unread, h6.read_unread, h7.read_unread, View.ld_unit_zero (S := S256x2048) hz2, View.ld_unit_zero (S := S2048x2048) hz2, View.ld_unit_zero (S := S1x2048) hz2, View.ld_unit_zero (S := S1x2048x2048) hz3, View.ld_unit_zero (S := S1x1x2048) hz3]

/-- The bias-gradient accumulator, away from the first point of a half. -/
theorem outB5 (c : Dev nD) (i : grid1.Coords) (a2 : Memref sig .tc .vmem S256x2048 .f32) (h2 : a2.IsWhole) (a3 : Memref sig .tc .vmem S256x2048 .f32) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : ¬cond1_0 i) (x0 : Vec F S256x2048 .f32) (x1 : Vec F S256x2048 .f32) (x2 : Vec F S2048x2048 .bf16) (x3 : Vec F S1x2048 .f32) (xo4 : Vec F S1x2048x2048 .f32) (xo5 : Vec F S1x1x2048 .f32) :
    out1_B_5 c i a2 h2 a3 h3 a4 h4 a5 h5 a6 h6 a7 h7 hc x0 x1 x2 x3 xo4 xo5 = k1_pay1 (k1_pay8 x0 x1 x2 x3 xo5) := by
  unfold out1_B_5
  rw [View.read_writes_eq_canon _ _ _ (cover1_B_5 c i a2 h2 a3 h3 a4 h4 a5 h5 a6 h6 a7 h7 hc x0 x1 x2 x3 xo4 xo5)]
  unfold kernelRun1_B
  dsimp only
  sl_unfold_words
  rw [View.canon_unit_zero hz3]
  simp only [View.readAt_eq_ld, h2.read_unread, h3.read_unread, h4.read_unread, h5.read_unread, h6.read_unread, h7.read_unread, View.ld_unit_zero (S := S256x2048) hz2, View.ld_unit_zero (S := S2048x2048) hz2, View.ld_unit_zero (S := S1x2048) hz2, View.ld_unit_zero (S := S1x2048x2048) hz3, View.ld_unit_zero (S := S1x1x2048) hz3]

/-- The bias-gradient accumulator at the first point of a half: zeroed, read back, accumulated onto. -/
theorem outA5 (c : Dev nD) (i : grid1.Coords) (a2 : Memref sig .tc .vmem S256x2048 .f32) (h2 : a2.IsWhole) (a3 : Memref sig .tc .vmem S256x2048 .f32) (h3 : a3.IsWhole) (a4 : Memref sig .tc .vmem S2048x2048 .bf16) (h4 : a4.IsWhole) (a5 : Memref sig .tc .vmem S1x2048 .f32) (h5 : a5.IsWhole) (a6 : Memref sig .tc .vmem S1x2048x2048 .f32) (h6 : a6.IsWhole) (a7 : Memref sig .tc .vmem S1x1x2048 .f32) (h7 : a7.IsWhole) (hc : cond1_0 i) (x0 : Vec F S256x2048 .f32) (x1 : Vec F S256x2048 .f32) (x2 : Vec F S2048x2048 .bf16) (x3 : Vec F S1x2048 .f32) :
    out1_A_5 c i a2 h2 a3 h3 a4 h4 a5 h5 a6 h6 a7 h7 hc x0 x1 x2 x3 = k1_pay1 (k1_pay8 x0 x1 x2 x3 (k1_pay3 (F := F))) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x1x2048) hz3, View.readCov_unit_zero (S := S1x1x2048) _ hz3]
  simp only [View.readAt_eq_ld, h2.read_unread, h3.read_unread, h4.read_unread, h5.read_unread, h6.read_unread, h7.read_unread, View.ld_unit_zero (S := S256x2048) hz2, View.ld_unit_zero (S := S2048x2048) hz2, View.ld_unit_zero (S := S1x2048) hz2, View.ld_unit_zero (S := S1x2048x2048) hz3, View.ld_unit_zero (S := S1x1x2048) hz3]

end Cert.KernelIdeal.GradPieces

end
-- ==== Proof.GradPay.lean ====
/-
  The second kernel region's arithmetic, entry by entry over the extended reals. For a block of 256 rows of train
  (x0) and label (x1), the (rounded) layer weights W (x2) and the bias as one row (x3):

    the error block        e[r, j]  = ((∑ k, x0[r, k] · W[j, k]) + b[j]) − (x1[r, j] − x0[r, j])
    the weight step        acc'[0, p, q] = acc[0, p, q] + ∑ r, e[r, p] · x0[r, q]
    the bias step          acc'[0, 0, j] = acc[0, 0, j] + ∑ r, e[r, j]

  (the sums over r run over the block's 256 rows; a change of float format is the identity here).
-/
import proofs.«111646_j12223476924503_2_alg».proof.Proof.Gen.KernelIdeal.Skeleton
import proofs.«111646_j12223476924503_2_alg».proof.Proof.MatmulAt
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.GradPay

open Cert.KernelIdeal Cert.KernelIdeal.Gen

/-- The error block at (r, j). -/
theorem err_at (x0 x1 : FVec Ideal S256x2048 .f32) (x2 : FVec Ideal S2048x2048 .bf16) (x3 : FVec Ideal S1x2048 .f32)
    (r : Fin 256) (j : Fin 2048) :
    k1_pay6 (F := Ideal) x0 x1 x2 x3 (ix2 r j)
      = (((∑ k : Fin 2048, x0 (ix2 r k) * x2 (ix2 j k)) + x3 (ix2 (0 : Fin 1) j)) - (x1 (ix2 r j) - x0 (ix2 r j)) : EReal) := by
  unfold k1_pay6 k1_pay5 k1_pay4
  rw [shapeCast_self, shapeCast_self, shapeCast_self, shapeCast_self]
  refine congrArg₂ (· - ·) (congrArg₂ (· + ·) ?_ ?_) rfl
  · exact MatmulAt.rows256_weightsT (truncf .bf16 x0 bitsLt_bf16_f32) x2 r j
  · exact broadcastTo_1b_ab_apply x3 broadcasts_S1x2048_S256x2048 r j

/-- The weight-gradient step at (0, p, q): the accumulator's entry plus the block's share ∑ r, e[r, p] · x0[r, q]. -/
theorem wstep_at (x0 x1 : FVec Ideal S256x2048 .f32) (x2 : FVec Ideal S2048x2048 .bf16) (x3 : FVec Ideal S1x2048 .f32)
    (acc : FVec Ideal S1x2048x2048 .f32) (u : Fin 1) (p q : Fin 2048) :
    k1_pay7 (F := Ideal) x0 x1 x2 x3 acc (ix3 u p q)
      = (acc (ix3 (0 : Fin 1) p q) + ∑ r : Fin 256, k1_pay6 (F := Ideal) x0 x1 x2 x3 (ix2 r p) * x0 (ix2 r q) : EReal) := by
  unfold k1_pay7 k1_pay5 k1_pay4
  rw [shapeCast_self]
  refine (shapeCast_ab_1ab_apply _ shapeCasts_S2048x2048_S1x2048x2048 u p q).trans ?_
  refine congrArg₂ (· + ·) ?_ ?_
  · exact shapeCast_1ab_ab_apply acc shapeCasts_S1x2048x2048_S2048x2048 p q
  · exact MatmulAt.errT_rows (truncf .bf16 (k1_pay6 (F := Ideal) x0 x1 x2 x3) bitsLt_bf16_f32) (truncf .bf16 x0 bitsLt_bf16_f32) p q

/-- A column sum over the block's 256 rows. -/
theorem colsum_at (src : FVec Ideal S256x2048 .f32) (hφ : FKind.Formats .f32)
    (hacc : (0x00000000#32 : BitVec 32) = FKind.add.neutral .f32 hφ) (j : Fin 2048) :
    multiReduction .add [0] S2048 src 0x00000000#32 reduces_S256x2048_S2048 hφ hacc (ix1 j) = (∑ r : Fin 256, src (ix2 r j) : EReal) := by
  refine (Ideal.multiReduction_add_single src _ reduces_S256x2048_S2048 hφ hacc (ix1 j)).trans ?_
  refine Finset.sum_congr rfl fun r _ => congrArg src (funext fun a => Fin.ext ?_)
  match a with
  | ⟨0, _⟩ => rfl
  | ⟨1, _⟩ => rfl

/-- The bias-gradient step at (0, 0, j): the accumulator's entry plus the block's column sum ∑ r, e[r, j]. -/
theorem bstep_at (x0 x1 : FVec Ideal S256x2048 .f32) (x2 : FVec Ideal S2048x2048 .bf16) (x3 : FVec Ideal S1x2048 .f32)
    (acc : FVec Ideal S1x1x2048 .f32) (u v : Fin 1) (j : Fin 2048) :
    k1_pay1 (F := Ideal) (k1_pay8 (F := Ideal) x0 x1 x2 x3 acc) (ix3 u v j)
      = (acc (ix3 (0 : Fin 1) v j) + ∑ r : Fin 256, k1_pay6 (F := Ideal) x0 x1 x2 x3 (ix2 r j) : EReal) := by
  unfold k1_pay1 k1_pay8
  refine (shapeCast_ab_1ab_apply _ shapeCasts_S1x2048_S1x1x2048 u v j).trans ?_
  refine congrArg₂ (· + ·) ?_ ?_
  · exact shapeCast_1ab_ab_apply acc shapeCasts_S1x1x2048_S1x2048 v j
  · refine (shapeCast_a_1a_apply _ shapeCasts_S2048_S1x2048 v j).trans ?_
    exact colsum_at _ _ _ j

end Cert.KernelIdeal.GradPay

end
-- ==== Proof.Grad.lean ====
/-
  The second kernel region: the two halves of the gradient sums. The grid has 16 points; point t stages rows
  [256 t, 256 t + 256) of train and label, the whole (rounded) weights and the bias, and belongs to half t / 8 of the
  rows. With err the layer's prediction error (Spec.err) of the arrays the region finds:

    after point t the weight accumulator holds, at (0, p, q),   ∑ over rows ρ in [2048 (t/8), 256 t + 256) of err[ρ, p] · train[ρ, q]
    and the bias accumulator, at (0, 0, j),                      ∑ over the same rows of err[ρ, j]

  — by induction on the point: the first point of a half starts from the zero block, every other point adds its block's
  share to what the point before left, and two adjacent intervals of rows sum to their union. The accumulators are
  written back after the last point of each half (t = 7, 15), so the two result arrays hold, at half c, the sums over
  rows [2048 c, 2048 c + 2048).
-/
import proofs.«111646_j12223476924503_2_alg».proof.Proof.Gen.KernelIdeal.Frame
import proofs.«111646_j12223476924503_2_alg».proof.Proof.GradPieces
import proofs.«111646_j12223476924503_2_alg».proof.Proof.GradPay
import proofs.«111646_j12223476924503_2_alg».proof.Proof.Spec
import Idealize.ShloMosaic.Lib.Pipeline.Value

noncomputable section

open scoped BigOperators
open Idealize.ShloMosaic Idealize.ShloMosaic.TcCoe Idealize.SL.Sem Idealize.ShloMosaic.ValueIdx

namespace Cert.KernelIdeal.GradValue

open Cert.KernelIdeal Cert.KernelIdeal.Gen Cert.Spec
open Idealize.ShloMosaic.Pipeline (Dat)

variable (V : (c : Dev nD) → (b : Ref sig .tc) → Buf (Elt Ideal) ((c : Thread nD τ).loc b))

/-! ## The arrays the region finds, by coordinates, and the error -/

abbrev trainC (c : Dev nD) (r : Fin 4096) (k : Fin 2048) : EReal := V c main_call0_v4_0 (ix2 r k)
abbrev labelC (c : Dev nD) (r : Fin 4096) (k : Fin 2048) : EReal := V c main_call0_v4_1 (ix2 r k)
abbrev biasC (c : Dev nD) (j : Fin 2048) : EReal := V c main_call0_v6 (ix2 (0 : Fin 1) j)

/-- The prediction error of the arrays the region finds. -/
def E (c : Dev nD) : Fin 4096 → Fin 2048 → EReal := err (trainC V c) (labelC V c) (V c main_call0_v5) (biasC V c)

/-- The weight-gradient sum over the rows in [a, b). -/
def gWpart (c : Dev nD) (p q : Fin 2048) (a b : ℕ) : EReal := ∑ k ∈ Finset.Ico a b, ext (gWterm (E V c) (trainC V c) p q) k

/-- The bias-gradient sum over the rows in [a, b). -/
def gbpart (c : Dev nD) (j : Fin 2048) (a b : ℕ) : EReal := ∑ k ∈ Finset.Ico a b, ext (fun ρ => E V c ρ j) k

/-! ## One point's blocks -/

/-- The printed index maps over the grid: train's and label's windows are at row block t, column block 0; the weights'
    and the bias's windows stay at block (0, 0). -/
theorem idx_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row r of point t's block is row 256 t + r of the array. -/
def row (t : Fin cfg1.N) (r : Fin 256) : Fin 4096 :=
  ⟨t.val * 256 + r.val, by have hN : cfg1.N = 16 := N_1; have := t.isLt; have := r.isLt; omega⟩

theorem train_blk (c : Dev nD) (t : Fin cfg1.N) (r : Fin 256) (k : Fin 2048) :
    iblk1 V c 0 t (ix2 r k) = trainC V c (row t r) k := by
  obtain ⟨e0, e1, -⟩ := idx_in t
  unfold iblk1
  rw [View.read_apply]
  show V c main_call0_v4_0 (((cfg1.win 0).blk t).view.emb (ix2 r k)) = V c main_call0_v4_0 (ix2 (row t r) k)
  refine congrArg (V c main_call0_v4_0) (funext fun a => Fin.ext ?_)
  match a with
  | ⟨0, _⟩ => show win1_0.index t (0 : Fin 2) * 256 + 1 * r.val = t.val * 256 + r.val; omega
  | ⟨1, _⟩ => show win1_0.index t (1 : Fin 2) * 2048 + 1 * k.val = k.val; omega

theorem label_blk (c : Dev nD) (t : Fin cfg1.N) (r : Fin 256) (k : Fin 2048) :
    iblk1 V c 1 t (ix2 r k) = labelC V c (row t r) k := by
  obtain ⟨-, -, e0, e1, -⟩ := idx_in t
  unfold iblk1
  rw [View.read_apply]
  show V c main_call0_v4_1 (((cfg1.win 1).blk t).view.emb (ix2 r k)) = V c main_call0_v4_1 (ix2 (row t r) k)
  refine congrArg (V c main_call0_v4_1) (funext fun a => Fin.ext ?_)
  match a with
  | ⟨0, _⟩ => show win1_1.index t (0 : Fin 2) * 256 + 1 * r.val = t.val * 256 + r.val; omega
  | ⟨1, _⟩ => show win1_1.index t (1 : Fin 2) * 2048 + 1 * k.val = k.val; omega

theorem w_blk (c : Dev nD) (t : Fin cfg1.N) (j k : Fin 2048) :
    iblk1 V c 2 t (ix2 j k) = V c main_call0_v5 (ix2 j k) := by
  obtain ⟨-, -, -, -, e0, e1, -⟩ := idx_in t
  unfold iblk1
  rw [View.read_apply]
  show V c main_call0_v5 (((cfg1.win 2).blk t).view.emb (ix2 j k)) = V c main_call0_v5 (ix2 j k)
  refine congrArg (V c main_call0_v5) (funext fun a => Fin.ext ?_)
  match a with
  | ⟨0, _⟩ => show win1_2.index t (0 : Fin 2) * 2048 + 1 * j.val = j.val; omega
  | ⟨1, _⟩ => show win1_2.index t (1 : Fin 2) * 2048 + 1 * k.val = k.val; omega

theorem b_blk (c : Dev nD) (t : Fin cfg1.N) (j : Fin 2048) :
    iblk1 V c 3 t (ix2 (0 : Fin 1) j) = biasC V c j := by
  obtain ⟨-, -, -, -, -, -, e0, e1⟩ := idx_in t
  unfold iblk1
  rw [View.read_apply]
  show V c main_call0_v6 (((cfg1.win 3).blk t).view.emb (ix2 (0 : Fin 1) j)) = V c main_call0_v6 (ix2 (0 : Fin 1) j)
  refine congrArg (V c main_call0_v6) (funext fun a => Fin.ext ?_)
  match a with
  | ⟨0, _⟩ => show win1_3.index t (0 : Fin 2) * 1 + 1 * 0 = 0; omega
  | ⟨1, _⟩ => show win1_3.index t (1 : Fin 2) * 2048 + 1 * j.val = j.val; omega

/-- The error block of point t is the error at the block's rows. -/
theorem err_blk (c : Dev nD) (t : Fin cfg1.N) (r : Fin 256) (j : Fin 2048) :
    k1_pay6 (F := Ideal) (iblk1 V c 0 t) (iblk1 V c 1 t) (iblk1 V c 2 t) (iblk1 V c 3 t) (ix2 r j) = E V c (row t r) j := by
  refine (GradPay.err_at (iblk1 V c 0 t) (iblk1 V c 1 t) (iblk1 V c 2 t) (iblk1 V c 3 t) r j).trans ?_
  unfold E err
  exact congrArg₂ (· - ·)
    (congrArg₂ (· + ·) (Finset.sum_congr rfl fun k _ => congrArg₂ (· * ·) (train_blk V c t r k) (w_blk V c t j k)) (b_blk V c t j))
    (congrArg₂ (· - ·) (label_blk V c t r j) (train_blk V c t r j))

/-- Point t's share of the weight gradient is the sum over its 256 rows. -/
theorem wblock (c : Dev nD) (t : Fin cfg1.N) (p q : Fin 2048) :
    (∑ r : Fin 256, k1_pay6 (F := Ideal) (iblk1 V c 0 t) (iblk1 V c 1 t) (iblk1 V c 2 t) (iblk1 V c 3 t) (ix2 r p) * iblk1 V c 0 t (ix2 r q) : EReal)
      = gWpart V c p q (t.val * 256) (t.val * 256 + 256) := by
  unfold gWpart
  rw [← sum_Ico_block]
  refine Finset.sum_congr rfl fun r _ => ?_
  have hlt : t.val * 256 + r.val < 4096 := (row t r).isLt
  rw [ext_of_lt _ hlt]
  exact congrArg₂ (· * ·) (err_blk V c t r p) (train_blk V c t r q)

/-- Point t's share of the bias gradient is the sum over its 256 rows. -/
theorem bblock (c : Dev nD) (t : Fin cfg1.N) (j : Fin 2048) :
    (∑ r : Fin 256, k1_pay6 (F := Ideal) (iblk1 V c 0 t) (iblk1 V c 1 t) (iblk1 V c 2 t) (iblk1 V c 3 t) (ix2 r j) : EReal) = gbpart V c j (t.val * 256) (t.val * 256 + 256) := by
  unfold gbpart
  rw [← sum_Ico_block]
  refine Finset.sum_congr rfl fun r _ => ?_
  have hlt : t.val * 256 + r.val < 4096 := (row t r).isLt
  rw [ext_of_lt _ hlt]
  exact err_blk V c t r j

/-! ## One accumulate step: adjacent intervals of rows sum to their union -/

theorem stepW (c : Dev nD) (t : Fin cfg1.N) (acc : FVec Ideal S1x2048x2048 .f32) (a : ℕ) (ha : a ≤ t.val * 256)
    (hacc : ∀ (p q : Fin 2048), acc (ix3 (0 : Fin 1) p q) = gWpart V c p q a (t.val * 256)) (u : Fin 1) (p q : Fin 2048) :
    k1_pay7 (F := Ideal) (iblk1 V c 0 t) (iblk1 V c 1 t) (iblk1 V c 2 t) (iblk1 V c 3 t) acc (ix3 u p q) = gWpart V c p q a (t.val * 256 + 256) := by
  refine (GradPay.wstep_at (iblk1 V c 0 t) (iblk1 V c 1 t) (iblk1 V c 2 t) (iblk1 V c 3 t) acc u p q).trans ?_
  rw [hacc p q, wblock V c t p q]
  exact Finset.sum_Ico_consecutive _ ha (Nat.le_add_right _ _)

theorem stepB (c : Dev nD) (t : Fin cfg1.N) (acc : FVec Ideal S1x1x2048 .f32) (a : ℕ) (ha : a ≤ t.val * 256)
    (hacc : ∀ (j : Fin 2048), acc (ix3 (0 : Fin 1) (0 : Fin 1) j) = gbpart V c j a (t.val * 256)) (u v : Fin 1) (j : Fin 2048) :
    k1_pay1 (F := Ideal) (k1_pay8 (F := Ideal) (iblk1 V c 0 t) (iblk1 V c 1 t) (iblk1 V c 2 t) (iblk1 V c 3 t) acc) (ix3 u v j) = gbpart V c j a (t.val * 256 + 256) := by
  obtain rfl : v = 0 := Subsingleton.elim _ _
  refine (GradPay.bstep_at (iblk1 V c 0 t) (iblk1 V c 1 t) (iblk1 V c 2 t) (iblk1 V c 3 t) acc u 0 j).trans ?_
  rw [hacc j, bblock V c t j]
  exact Finset.sum_Ico_consecutive _ ha (Nat.le_add_right _ _)

/-- The zero blocks the reset stores are the sums over the empty interval of rows. -/
theorem zeroW_at (c : Dev nD) (a : ℕ) (p q : Fin 2048) : k1_pay2 (F := Ideal) (ix3 (0 : Fin 1) p q) = gWpart V c p q a a := by
  unfold gWpart k1_pay2
  rw [Finset.Ico_self, Finset.sum_empty]
  refine (shapeCast_ab_1ab_apply _ shapeCasts_S2048x2048_S1x2048x2048 0 p q).trans ?_
  exact Ideal.ofBits_zero_f32

theorem zerob_at (c : Dev nD) (a : ℕ) (j : Fin 2048) : k1_pay3 (F := Ideal) (ix3 (0 : Fin 1) (0 : Fin 1) j) = gbpart V c j a a := by
  unfold gbpart k1_pay3
  rw [Finset.Ico_self, Finset.sum_empty]
  refine (shapeCast_ab_1ab_apply _ shapeCasts_S1x2048_S1x1x2048 0 0 j).trans ?_
  exact Ideal.ofBits_zero_f32

/-! ## The accumulators after each point -/

theorem accA (c : Dev nD) (t : Fin cfg1.N) (h0 : t.val % 8 = 0) :
    outsAt1 V c t.val t.isLt = (k1_pay7 (F := Ideal) (iblk1 V c 0 t) (iblk1 V c 1 t) (iblk1 V c 2 t) (iblk1 V c 3 t) (k1_pay2 (F := Ideal)), k1_pay1 (F := Ideal) (k1_pay8 (F := Ideal) (iblk1 V c 0 t) (iblk1 V c 1 t) (iblk1 V c 2 t) (iblk1 V c 3 t) (k1_pay3 (F := Ideal)))) :=
  (outsAt1_A V c t h0).trans (congrArg₂ Prod.mk
    (GradPieces.outA4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t))
    (GradPieces.outA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)))

theorem accB (c : Dev nD) (t : Fin cfg1.N) (h0 : ¬t.val % 8 = 0) :
    outsAt1 V c t.val t.isLt = (k1_pay7 (F := Ideal) (iblk1 V c 0 t) (iblk1 V c 1 t) (iblk1 V c 2 t) (iblk1 V c 3 t) (outsAt1 V c (t.val - 1) (Nat.lt_of_le_of_lt (Nat.sub_le _ _) t.isLt)).1, k1_pay1 (F := Ideal) (k1_pay8 (F := Ideal) (iblk1 V c 0 t) (iblk1 V c 1 t) (iblk1 V c 2 t) (iblk1 V c 3 t) (outsAt1 V c (t.val - 1) (Nat.lt_of_le_of_lt (Nat.sub_le _ _) t.isLt)).2)) :=
  (outsAt1_B V c t h0).trans (congrArg₂ Prod.mk
    (GradPieces.outB4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2)
    (GradPieces.outB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2))

/-- After point n both accumulators hold the sums over the rows of n's half seen so far. -/
def Inv (c : Dev nD) (n : ℕ) (hn : n < cfg1.N) : Prop :=
  (∀ (u : Fin 1) (p q : Fin 2048), (outsAt1 V c n hn).1 (ix3 u p q) = gWpart V c p q (n / 8 * 2048) (n * 256 + 256))
  ∧ (∀ (u v : Fin 1) (j : Fin 2048), (outsAt1 V c n hn).2 (ix3 u v j) = gbpart V c j (n / 8 * 2048) (n * 256 + 256))

theorem inv_A (c : Dev nD) (t : Fin cfg1.N) (h0 : t.val % 8 = 0) : Inv V c t.val t.isLt := by
  have ha : t.val / 8 * 2048 = t.val * 256 := by omega
  unfold Inv
  rw [accA V c t h0, ha]
  exact ⟨fun u p q => stepW V c t _ _ (le_refl _) (fun p q => zeroW_at V c _ p q) u p q,
    fun u v j => stepB V c t _ _ (le_refl _) (fun j => zerob_at V c _ j) u v j⟩

theorem inv_B (c : Dev nD) (t : Fin cfg1.N) (h0 : ¬t.val % 8 = 0)
    (ih : Inv V c (t.val - 1) (Nat.lt_of_le_of_lt (Nat.sub_le _ _) t.isLt)) : Inv V c t.val t.isLt := by
  have ha : (t.val - 1) / 8 * 2048 = t.val / 8 * 2048 := by omega
  have hb : (t.val - 1) * 256 + 256 = t.val * 256 := by omega
  have hle : t.val / 8 * 2048 ≤ t.val * 256 := by omega
  unfold Inv at ih ⊢
  rw [ha, hb] at ih
  rw [accB V c t h0]
  exact ⟨fun u p q => stepW V c t _ _ hle (fun p q => ih.1 0 p q) u p q,
    fun u v j => stepB V c t _ _ hle (fun j => ih.2 0 0 j) u v j⟩

theorem outsAt_eq (c : Dev nD) (n : ℕ) : ∀ hn : n < cfg1.N, Inv V c n hn := by
  induction n with
  | zero => intro hn; exact inv_A V c ⟨0, hn⟩ rfl
  | succ n ih =>
    intro hn
    by_cases h0 : (n + 1) % 8 = 0
    · exact inv_A V c ⟨n + 1, hn⟩ h0
    · exact inv_B V c ⟨n + 1, hn⟩ h0 (ih (Nat.lt_of_succ_lt hn))

end Cert.KernelIdeal.GradValue

end
-- ==== Proof.GradOut.lean ====
/-
  The second kernel region's two result arrays. Each accumulator is written back after the last point of each half
  of the rows (points 7 and 15), when it holds the sum over that whole half; the two blocks tile the array. So the
  arrays end holding, at half c ∈ {0, 1}, the sums over rows [2048 c, 2048 c + 2048) of err[ρ, p] · train[ρ, q] and
  of err[ρ, j].
-/
import proofs.«111646_j12223476924503_2_alg».proof.Proof.Grad

noncomputable section

open scoped BigOperators
open Idealize.ShloMosaic Idealize.ShloMosaic.TcCoe Idealize.SL.Sem Idealize.ShloMosaic.ValueIdx

namespace Cert.KernelIdeal.GradValue

open Cert.KernelIdeal Cert.KernelIdeal.Gen Cert.Spec
open Idealize.ShloMosaic.Pipeline (Dat)

variable (V : (c : Dev nD) → (b : Ref sig .tc) → Buf (Elt Ideal) ((c : Thread nD τ).loc b))

/-! ## The weight-gradient halves (output window 4) -/

/-- The array after the region: at half c, entry (p, q), the sum over the rows of that half. -/
abbrev GW (c : Dev nD) : S2x2048x2048.Idx → EReal :=
  fun i => gWpart V c ⟨(i 1).val, (i 1).isLt⟩ ⟨(i 2).val, (i 2).isLt⟩ ((i 0).val * 2048) ((i 0).val * 2048 + 2048)

theorem gWpart_congr (c : Dev nD) {p p' q q' : Fin 2048} {a a' b b' : ℕ} (hp : p.val = p'.val) (hq : q.val = q'.val)
    (ha : a = a') (hb : b = b') : gWpart V c p q a b = gWpart V c p' q' a' b' := by
  obtain rfl : p = p' := Fin.ext hp
  obtain rfl : q = q' := Fin.ext hq
  subst ha hb
  rfl

/-- An accumulator entry after point t, at any index of the block. -/
theorem accW_at (c : Dev nD) (t : Fin cfg1.N) (y : S1x2048x2048.Idx) :
    (outsAt1 V c t.val t.isLt).1 y = gWpart V c ⟨(y 1).val, (y 1).isLt⟩ ⟨(y 2).val, (y 2).isLt⟩ (t.val / 8 * 2048) (t.val * 256 + 256) :=
  (congrArg (outsAt1 V c t.val t.isLt).1 (eq_ix3 y)).trans ((outsAt_eq V c t.val t.isLt).1 (y 0) (y 1) (y 2))

/-- The printed index map over the grid: the output block is half t / 8, at block 0 on the other two axes. -/
theorem idx_out4 : ∀ t : Fin cfg1.N, win1_4.index t (0 : Fin 3) = t.val / 8
    ∧ win1_4.index t (1 : Fin 3) = 0 ∧ win1_4.index t (2 : Fin 3) = 0 :=
  (by decide +kernel : ∀ t : Fin grid1.N, _)

/-- Each half is written back by the last point of that half. -/
theorem idx_onto4 : ∀ q0 : Fin 2, ∃ t : Fin cfg1.N, t.val % 8 = 7 ∧ win1_4.index t = ![q0.val, 0, 0] :=
  (by decide +kernel : ∀ q0 : Fin 2, ∃ t : Fin grid1.N, t.val % 8 = 7 ∧ win1_4.index t = ![q0.val, 0, 0])

/-- What a writing-back point (t ≡ 7 mod 8) writes is its half of the array. -/
theorem flushedW_eq (c : Dev nD) (t : Fin cfg1.N) (hf : (cfg1.win 4).flush t = true) :
    (dat1 V c).flushed 4 t = ((cfg1.win 4).blk t).view.read (Elt Ideal) (GW V c) := by
  have h7 : t.val % 8 = 7 := (flush1_4 t).mp hf
  obtain ⟨e0, e1, e2⟩ := idx_out4 t
  show (cfg1.win 4).cut (grid1.coords t) ((dat1 V c).after 4 t) = _
  rw [after1_4]
  funext j
  show (outsAt1 V c t.val t.isLt).1 j = GW V c (((cfg1.win 4).blk t).view.emb j)
  refine (accW_at V c t j).trans ?_
  have hj0 : (j 0).val < 1 := (j 0).isLt
  refine gWpart_congr V c ?_ ?_ ?_ ?_
  · show (j 1).val = win1_4.index t (1 : Fin 3) * 2048 + 1 * (j 1).val; omega
  · show (j 2).val = win1_4.index t (2 : Fin 3) * 2048 + 1 * (j 2).val; omega
  · show t.val / 8 * 2048 = (win1_4.index t (0 : Fin 3) * 1 + 1 * (j 0).val) * 2048; omega
  · show t.val * 256 + 256 = (win1_4.index t (0 : Fin 3) * 1 + 1 * (j 0).val) * 2048 + 2048; omega

/-- An entry of the array is in point t's block iff each coordinate is in the block's range on its axis. -/
theorem mem_blk4 (t : Fin cfg1.N) (i : S2x2048x2048.Idx) :
    i ∈ ((cfg1.win 4).blk t).view.set ↔ ∀ a : Fin 3, win1_4.index t a * S1x2048x2048.size a ≤ (i a).val ∧ (i a).val < win1_4.index t a * S1x2048x2048.size a + S1x2048x2048.size a := by
  show i ∈ ((View.whole main_call0_v7_0).slice (win1_4.rect t)).set ↔ _
  rw [View.set_slice_whole, Rect.mem_set_unit]
  exact Iff.rfl

/-- The two halves tile the array. -/
theorem cover4 (i : S2x2048x2048.Idx) :
    ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 2048 := (i 2).isLt
  obtain ⟨t, h7, ht⟩ := idx_onto4 ⟨(i 0).val, hi0⟩
  have q0 : win1_4.index t (0 : Fin 3) = (i 0).val := congrFun ht 0
  have q1 : win1_4.index t (1 : Fin 3) = 0 := congrFun ht 1
  have q2 : win1_4.index t (2 : Fin 3) = 0 := congrFun ht 2
  refine ⟨t, (flush1_4 t).mpr h7, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 2048 ≤ (i 2).val ∧ (i 2).val < win1_4.index t (2 : Fin 3) * 2048 + 2048; omega

/-- The array after the region. -/
theorem finalW (c : Dev nD) : (dat1 V c).arrAt 4 cfg1.N = GW V c :=
  (dat1 V c).arrAt_eq_of_cover 4 _ (flushedW_eq V c) cover4

/-! ## The bias-gradient halves (output window 5) -/

/-- The array after the region: at half c, entry j, the sum over the rows of that half. -/
abbrev Gb (c : Dev nD) : S2x1x2048.Idx → EReal :=
  fun i => gbpart V c ⟨(i 2).val, (i 2).isLt⟩ ((i 0).val * 2048) ((i 0).val * 2048 + 2048)

theorem gbpart_congr (c : Dev nD) {q q' : Fin 2048} {a a' b b' : ℕ} (hq : q.val = q'.val)
    (ha : a = a') (hb : b = b') : gbpart V c q a b = gbpart V c q' a' b' := by
  obtain rfl : q = q' := Fin.ext hq
  subst ha hb
  rfl

/-- An accumulator entry after point t, at any index of the block. -/
theorem accb_at (c : Dev nD) (t : Fin cfg1.N) (y : S1x1x2048.Idx) :
    (outsAt1 V c t.val t.isLt).2 y = gbpart V c ⟨(y 2).val, (y 2).isLt⟩ (t.val / 8 * 2048) (t.val * 256 + 256) :=
  (congrArg (outsAt1 V c t.val t.isLt).2 (eq_ix3 y)).trans ((outsAt_eq V c t.val t.isLt).2 (y 0) (y 1) (y 2))

/-- The printed index map over the grid: the output block is half t / 8, at block 0 on the other two axes. -/
theorem idx_out5 : ∀ t : Fin cfg1.N, win1_5.index t (0 : Fin 3) = t.val / 8
    ∧ win1_5.index t (1 : Fin 3) = 0 ∧ win1_5.index t (2 : Fin 3) = 0 :=
  (by decide +kernel : ∀ t : Fin grid1.N, _)

/-- Each half is written back by the last point of that half. -/
theorem idx_onto5 : ∀ q0 : Fin 2, ∃ t : Fin cfg1.N, t.val % 8 = 7 ∧ win1_5.index t = ![q0.val, 0, 0] :=
  (by decide +kernel : ∀ q0 : Fin 2, ∃ t : Fin grid1.N, t.val % 8 = 7 ∧ win1_5.index t = ![q0.val, 0, 0])

/-- What a writing-back point (t ≡ 7 mod 8) writes is its half of the array. -/
theorem flushedb_eq (c : Dev nD) (t : Fin cfg1.N) (hf : (cfg1.win 5).flush t = true) :
    (dat1 V c).flushed 5 t = ((cfg1.win 5).blk t).view.read (Elt Ideal) (Gb V c) := by
  have h7 : t.val % 8 = 7 := (flush1_5 t).mp hf
  obtain ⟨e0, e1, e2⟩ := idx_out5 t
  show (cfg1.win 5).cut (grid1.coords t) ((dat1 V c).after 5 t) = _
  rw [after1_5]
  funext j
  show (outsAt1 V c t.val t.isLt).2 j = Gb V c (((cfg1.win 5).blk t).view.emb j)
  refine (accb_at V c t j).trans ?_
  have hj0 : (j 0).val < 1 := (j 0).isLt
  refine gbpart_congr V c ?_ ?_ ?_
  · show (j 2).val = win1_5.index t (2 : Fin 3) * 2048 + 1 * (j 2).val; omega
  · show t.val / 8 * 2048 = (win1_5.index t (0 : Fin 3) * 1 + 1 * (j 0).val) * 2048; omega
  · show t.val * 256 + 256 = (win1_5.index t (0 : Fin 3) * 1 + 1 * (j 0).val) * 2048 + 2048; omega

/-- An entry of the array is in point t's block iff each coordinate is in the block's range on its axis. -/
theorem mem_blk5 (t : Fin cfg1.N) (i : S2x1x2048.Idx) :
    i ∈ ((cfg1.win 5).blk t).view.set ↔ ∀ a : Fin 3, win1_5.index t a * S1x1x2048.size a ≤ (i a).val ∧ (i a).val < win1_5.index t a * S1x1x2048.size a + S1x1x2048.size a := by
  show i ∈ ((View.whole main_call0_v7_1).slice (win1_5.rect t)).set ↔ _
  rw [View.set_slice_whole, Rect.mem_set_unit]
  exact Iff.rfl

/-- The two halves tile the array. -/
theorem cover5 (i : S2x1x2048.Idx) :
    ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 2048 := (i 2).isLt
  obtain ⟨t, h7, ht⟩ := idx_onto5 ⟨(i 0).val, hi0⟩
  have q0 : win1_5.index t (0 : Fin 3) = (i 0).val := congrFun ht 0
  have q1 : win1_5.index t (1 : Fin 3) = 0 := congrFun ht 1
  have q2 : win1_5.index t (2 : Fin 3) = 0 := congrFun ht 2
  refine ⟨t, (flush1_5 t).mpr h7, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 2048 ≤ (i 2).val ∧ (i 2).val < win1_5.index t (2 : Fin 3) * 2048 + 2048; omega

/-- The array after the region. -/
theorem finalb (c : Dev nD) : (dat1 V c).arrAt 5 cfg1.N = Gb V c :=
  (dat1 V c).arrAt_eq_of_cover 5 _ (flushedb_eq V c) cover5

end Cert.KernelIdeal.GradValue

end
-- ==== Proof.Query.lean ====
/-
  The third kernel region: the query through the updated layer. Each grid point t stages rows [512 t, 512 t + 512) of
  test, the whole (rounded) updated weight matrix and the updated bias as one row, and writes back the block

      z[r, j] = ((∑ k, test[r, k] · W'[j, k]) + b'[j]) + test[r, j];

  the 8 blocks tile the 4096 rows, so the result array ends as that function of the three arrays the region finds.
-/
import proofs.«111646_j12223476924503_2_alg».proof.Proof.Gen.KernelIdeal.Frame
import proofs.«111646_j12223476924503_2_alg».proof.Proof.MatmulAt
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx

namespace Cert.KernelIdeal.QueryValue

open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result array as a function of test, the weights and the one-row bias it finds. -/
abbrev z (T : S4096x2048.Idx → EReal) (Wn : S2048x2048.Idx → EReal) (bn : S1x2048.Idx → EReal) : S4096x2048.Idx → EReal :=
  fun i => ((∑ k : Fin 2048, T (ix2 (i 0) k) * Wn (ix2 (i 1) k)) + bn (ix2 (0 : Fin 1) (i 1))) + T i

/-- The body's stored value at entry (p, q) of the block: row p of the staged rows against ROW q of the weights, plus
    the bias at q, plus the staged entry itself. -/
theorem pay_at (x0 : FVec Ideal S512x2048 .f32) (x1 : FVec Ideal S2048x2048 .bf16) (x2 : FVec Ideal S1x2048 .f32) (p : Fin 512) (q : Fin 2048) :
    k2_pay1 (F := Ideal) x0 x1 x2 (ix2 p q)
      = (((∑ k : Fin 2048, x0 (ix2 p k) * x1 (ix2 q k)) + x2 (ix2 (0 : Fin 1) q)) + x0 (ix2 p q) : EReal) := by
  unfold k2_pay1
  rw [shapeCast_self, shapeCast_self, shapeCast_self]
  refine congrArg₂ (· + ·) (congrArg₂ (· + ·) ?_ ?_) rfl
  · exact MatmulAt.rows512_weightsT (truncf .bf16 x0 bitsLt_bf16_f32) x1 p q
  · exact broadcastTo_1b_ab_apply x2 broadcasts_S1x2048_S512x2048 p q

/-- The same at any index of the block, through its two coordinates. -/
theorem pay_at' (x0 : FVec Ideal S512x2048 .f32) (x1 : FVec Ideal S2048x2048 .bf16) (x2 : FVec Ideal S1x2048 .f32) (y : S512x2048.Idx) :
    k2_pay1 (F := Ideal) x0 x1 x2 y
      = (((∑ k : Fin 2048, x0 (ix2 (y 0) k) * x1 (ix2 (y 1) k)) + x2 (ix2 (0 : Fin 1) (y 1))) + x0 (ix2 (y 0) (y 1)) : EReal) :=
  (congrArg (k2_pay1 (F := Ideal) x0 x1 x2) (eq_ix2 y)).trans (pay_at x0 x1 x2 (y 0) (y 1))

/-- The printed index maps over the grid: test's window and the output window move together along the rows and stay
    at column block 0; the weights' and the bias's windows stay at block (0, 0). -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every row block is some point's. -/
theorem idx_onto : ∀ q0 : Fin 8, ∃ t : Fin cfg2.N, win2_3.index t = ![q0.val, 0] :=
  (by decide +kernel : ∀ q0 : Fin 8, ∃ t : Fin grid2.N, win2_3.index t = ![q0.val, 0])

/-- What point t writes back is block t of `z` of the arrays as the region finds them. -/
theorem flushed_eq (c : Dev nD) (t : Fin cfg2.N) :
    (dat2 V c).flushed 3 t = ((cfg2.win 3).blk t).view.read (Elt Ideal) (z (V c main_call0_v4_2) (V c main_call0_v19) (V c main_call0_v20)) := by
  show (cfg2.win 3).cut (grid2.coords t) ((dat2 V c).after 3 t) = _
  rw [after2_3]
  unfold out2_3
  rw [View.canon_unit_zero hz]
  simp only [View.ld_unit_zero (S := S512x2048) hz, View.ld_unit_zero (S := S2048x2048) hz, View.ld_unit_zero (S := S1x2048) hz]
  obtain ⟨e0, e1, e2, e3, e4, e5, e6⟩ := idx_facts t
  funext j
  show k2_pay1 (F := Ideal) (iblk2 V c 0 t) (iblk2 V c 1 t) (iblk2 V c 2 t) j
    = z (V c main_call0_v4_2) (V c main_call0_v19) (V c main_call0_v20) (((cfg2.win 3).blk t).view.emb j)
  refine (pay_at' _ _ _ j).trans ?_
  have hT : ∀ y : S512x2048.Idx, (y 0).val = (j 0).val →
      iblk2 V c 0 t y = V c main_call0_v4_2 (ix2 (((cfg2.win 3).blk t).view.emb j 0) (y 1)) := by
    intro y hy
    unfold iblk2
    rw [View.read_apply]
    show V c main_call0_v4_2 (((cfg2.win 0).blk t).view.emb y) = _
    refine congrArg (V c main_call0_v4_2) (funext fun a => Fin.ext ?_)
    match a with
    | ⟨0, _⟩ => show win2_0.index t (0 : Fin 2) * 512 + 1 * (y 0).val = win2_3.index t (0 : Fin 2) * 512 + 1 * (j 0).val; omega
    | ⟨1, _⟩ => show win2_0.index t (1 : Fin 2) * 2048 + 1 * (y 1).val = (y 1).val; omega
  have hW : ∀ k : Fin 2048, iblk2 V c 1 t (ix2 (j 1) k) = V c main_call0_v19 (ix2 (((cfg2.win 3).blk t).view.emb j 1) k) := by
    intro k
    unfold iblk2
    rw [View.read_apply]
    show V c main_call0_v19 (((cfg2.win 1).blk t).view.emb (ix2 (j 1) k)) = _
    refine congrArg (V c main_call0_v19) (funext fun a => Fin.ext ?_)
    match a with
    | ⟨0, _⟩ => show win2_1.index t (0 : Fin 2) * 2048 + 1 * (j 1).val = win2_3.index t (1 : Fin 2) * 2048 + 1 * (j 1).val; omega
    | ⟨1, _⟩ => show win2_1.index t (1 : Fin 2) * 2048 + 1 * k.val = k.val; omega
  have hb : iblk2 V c 2 t (ix2 (0 : Fin 1) (j 1)) = V c main_call0_v20 (ix2 (0 : Fin 1) (((cfg2.win 3).blk t).view.emb j 1)) := by
    unfold iblk2
    rw [View.read_apply]
    show V c main_call0_v20 (((cfg2.win 2).blk t).view.emb (ix2 (0 : Fin 1) (j 1))) = _
    refine congrArg (V c main_call0_v20) (funext fun a => Fin.ext ?_)
    match a with
    | ⟨0, _⟩ => show win2_2.index t (0 : Fin 2) * 1 + 1 * 0 = 0; omega
    | ⟨1, _⟩ => show win2_2.index t (1 : Fin 2) * 2048 + 1 * (j 1).val = win2_3.index t (1 : Fin 2) * 2048 + 1 * (j 1).val; omega
  have hres : iblk2 V c 0 t (ix2 (j 0) (j 1)) = V c main_call0_v4_2 (((cfg2.win 3).blk t).view.emb j) := by
    refine (hT (ix2 (j 0) (j 1)) rfl).trans (congrArg (V c main_call0_v4_2) (funext fun a => Fin.ext ?_))
    match a with
    | ⟨0, _⟩ => rfl
    | ⟨1, _⟩ => show (j 1).val = win2_3.index t (1 : Fin 2) * 2048 + 1 * (j 1).val; omega
  refine congrArg₂ (· + ·) (congrArg₂ (· + ·) (Finset.sum_congr rfl fun k _ => ?_) hb) hres
  exact congrArg₂ (· * ·) (hT (ix2 (j 0) k) rfl) (hW k)

/-- An entry of the array is in point t's block iff each coordinate is in the block's range on its axis. -/
theorem mem_blk (t : Fin cfg2.N) (i : S4096x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v0).slice (win2_3.rect t)).set ↔ _
  rw [View.set_slice_whole, Rect.mem_set_unit]
  exact Iff.rfl

/-- Row r lies in the block of the point whose row block is r / 512: the 8 blocks tile the array. -/
theorem cover (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2048 ≤ (i 1).val ∧ (i 1).val < win2_3.index t (1 : Fin 2) * 2048 + 2048; omega

/-- The result array after the region. -/
theorem final (c : Dev nD) : (dat2 V c).arrAt 3 cfg2.N = z (V c main_call0_v4_2) (V c main_call0_v19) (V c main_call0_v20) :=
  (dat2 V c).arrAt_eq_of_cover 3 _ (fun t _ => flushed_eq V c t) cover

end Cert.KernelIdeal.QueryValue

end
-- ==== Proof.KernelValue.lean ====
/-
  The kernel computes the specification. Reading back from the result buffer: the third region's array is the query
  formula of test, the rounded updated weights and the updated bias row; those are the host's descent step over the
  second region's two arrays of half sums; the halves' rows [0, 2048) and [2048, 4096) are adjacent, so the two halves
  add up to the sums over all 4096 rows; and the second region's train, label, weights and bias are the first
  region's products and the rounded arguments. A change of float format is the identity on extended reals.
-/
import proofs.«111646_j12223476924503_2_alg».proof.Proof.Between
import proofs.«111646_j12223476924503_2_alg».proof.Proof.Proj
import proofs.«111646_j12223476924503_2_alg».proof.Proof.GradOut
import proofs.«111646_j12223476924503_2_alg».proof.Proof.Query
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen Cert.Spec

variable (m : (ℓ : Loc nD τ sig) → Buf (Elt Ideal) ℓ) (ρ : Dev nD → PrngReg)

/-! ## The argument arrays -/

abbrev a0 (c : Dev nD) : FVec Ideal S4096x2048 .f32 := m ((c : Thread nD τ).loc main_arg0)
abbrev a1 (c : Dev nD) : FVec Ideal S2048x2048 .f32 := m ((c : Thread nD τ).loc main_arg1)
abbrev a2 (c : Dev nD) : FVec Ideal S2048x2048 .f32 := m ((c : Thread nD τ).loc main_arg2)
abbrev a3 (c : Dev nD) : FVec Ideal S2048x2048 .f32 := m ((c : Thread nD τ).loc main_arg3)
abbrev a4 (c : Dev nD) : FVec Ideal S2048x2048 .f32 := m ((c : Thread nD τ).loc main_arg4)
abbrev a5 (c : Dev nD) : FVec Ideal S2048 .f32 := m ((c : Thread nD τ).loc main_arg5)
abbrev a6 (c : Dev nD) : FVec Ideal S2048x2048 .f32 := m ((c : Thread nD τ).loc main_arg6)
abbrev a7 (c : Dev nD) : FVec Ideal S2048 .f32 := m ((c : Thread nD τ).loc main_arg7)

/-! ## The first region's products, as later regions find them -/

/-- Rounding both operands does not change a product over the extended reals. -/
theorem proj_round (X : FVec Ideal S4096x2048 .f32) (Y : FVec Ideal S2048x2048 .f32) :
    proj (truncf .bf16 X bitsLt_bf16_f32 : FVec Ideal S4096x2048 .bf16) (truncf .bf16 Y bitsLt_bf16_f32 : FVec Ideal S2048x2048 .bf16) = proj X Y := rfl

theorem train_arr (c : Dev nD) : (V3 m ρ c main_call0_v4_0 : FVec Ideal S4096x2048 .f32) = ProjValue.prod (truncf .bf16 (a0 m c) bitsLt_bf16_f32 : FVec Ideal S4096x2048 .bf16) (truncf .bf16 (a1 m c) bitsLt_bf16_f32 : FVec Ideal S2048x2048 .bf16) :=
  ((Between.v3_train m ρ c).trans (ProjValue.final4 (V1 m ρ) c)).trans
    (congrArg₂ ProjValue.prod (Between.v1_v0 m ρ c) (Between.v1_v1 m ρ c))

theorem label_arr (c : Dev nD) : (V3 m ρ c main_call0_v4_1 : FVec Ideal S4096x2048 .f32) = ProjValue.prod (truncf .bf16 (a0 m c) bitsLt_bf16_f32 : FVec Ideal S4096x2048 .bf16) (truncf .bf16 (a3 m c) bitsLt_bf16_f32 : FVec Ideal S2048x2048 .bf16) :=
  ((Between.v3_label m ρ c).trans (ProjValue.final5 (V1 m ρ) c)).trans
    (congrArg₂ ProjValue.prod (Between.v1_v0 m ρ c) (Between.v1_v3 m ρ c))

theorem test_arr (c : Dev nD) : (V5 m ρ c main_call0_v4_2 : FVec Ideal S4096x2048 .f32) = ProjValue.prod (truncf .bf16 (a0 m c) bitsLt_bf16_f32 : FVec Ideal S4096x2048 .bf16) (truncf .bf16 (a2 m c) bitsLt_bf16_f32 : FVec Ideal S2048x2048 .bf16) :=
  ((Between.v5_test m ρ c).trans (ProjValue.final6 (V1 m ρ) c)).trans
    (congrArg₂ ProjValue.prod (Between.v1_v0 m ρ c) (Between.v1_v2 m ρ c))

/-! ## What the second region finds, by coordinates -/

theorem trainC_eq (c : Dev nD) : GradValue.trainC (V3 m ρ) c = proj (a0 m c) (a1 m c) := by
  funext r k
  exact (congrFun (train_arr m ρ c) (ix2 r k)).trans (congrFun (congrFun (proj_round (a0 m c) (a1 m c)) r) k)

theorem labelC_eq (c : Dev nD) : GradValue.labelC (V3 m ρ) c = proj (a0 m c) (a3 m c) := by
  funext r k
  exact (congrFun (label_arr m ρ c) (ix2 r k)).trans (congrFun (congrFun (proj_round (a0 m c) (a3 m c)) r) k)

theorem biasC_eq (c : Dev nD) : GradValue.biasC (V3 m ρ) c = fun j => (a5 m c) (ix1 j) := by
  funext j
  exact (congrFun (Between.v3_b m ρ c) (ix2 (0 : Fin 1) j)).trans (shapeCast_a_1a_apply (a5 m c) shapeCasts_S2048_S1x2048 0 j)

/-- The prediction error the second region accumulates is the specification's. -/
theorem E_eq (c : Dev nD) : GradValue.E (V3 m ρ) c = (err (proj (a0 m c) (a1 m c)) (proj (a0 m c) (a3 m c)) (a4 m c) (fun j => (a5 m c) (ix1 j))) := by
  unfold GradValue.E
  rw [trainC_eq, labelC_eq, biasC_eq, Between.v3_w]
  rfl

/-! ## The two halves add up to the sums over all rows -/

/-- The host's sum of the two halves from zero, at (p, q). -/
theorem halvesW_at (X : FVec Ideal S2x2048x2048 .f32) (p q : Fin 2048) :
    Host.reduceAdd (F := Ideal) X (constant (F := Ideal) S_ .f32 0x00000000#32) reducesTo_S2x2048x2048_S2048x2048_d0 h_S_ (ix2 p q)
      = (X (ix3 (0 : Fin 2) p q) + X (ix3 (1 : Fin 2) p q) : EReal) := by
  simp only [Host.reduceAdd, Ideal.hostReduceAdd_def]
  rw [Ideal.hostReduceAdd_single reducesTo_S2x2048x2048_S2048x2048_d0 (by decide)]
  refine (congrArg₂ (· + ·) Ideal.ofBits_zero_f32 (Fin.sum_univ_two _)).trans ?_
  rw [zero_add]
  refine congrArg₂ (· + ·) (congrArg X (funext fun a => Fin.ext ?_)) (congrArg X (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

theorem halvesb_at (X : FVec Ideal S2x1x2048 .f32) (u : Fin 1) (j : Fin 2048) :
    Host.reduceAdd (F := Ideal) X (constant (F := Ideal) S_ .f32 0x00000000#32) reducesTo_S2x1x2048_S1x2048_d0 h_S_ (ix2 u j)
      = (X (ix3 (0 : Fin 2) u j) + X (ix3 (1 : Fin 2) u j) : EReal) := by
  simp only [Host.reduceAdd, Ideal.hostReduceAdd_def]
  rw [Ideal.hostReduceAdd_single reducesTo_S2x1x2048_S1x2048_d0 (by decide)]
  refine (congrArg₂ (· + ·) Ideal.ofBits_zero_f32 (Fin.sum_univ_two _)).trans ?_
  rw [zero_add]
  refine congrArg₂ (· + ·) (congrArg X (funext fun a => Fin.ext ?_)) (congrArg X (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- Rows [0, 2048) and [2048, 4096) together are all the rows. -/
theorem gW_halves (c : Dev nD) (p q : Fin 2048) :
    GradValue.gWpart (V3 m ρ) c p q 0 2048 + GradValue.gWpart (V3 m ρ) c p q 2048 4096 = gW (err (proj (a0 m c) (a1 m c)) (proj (a0 m c) (a3 m c)) (a4 m c) (fun j => (a5 m c) (ix1 j))) (proj (a0 m c) (a1 m c)) p q := by
  unfold GradValue.gWpart
  rw [Finset.sum_Ico_consecutive _ (by decide : 0 ≤ 2048) (by decide : 2048 ≤ 4096), ← Finset.range_eq_Ico, sum_range_ext, E_eq, trainC_eq]
  rfl

theorem gb_halves (c : Dev nD) (j : Fin 2048) :
    GradValue.gbpart (V3 m ρ) c j 0 2048 + GradValue.gbpart (V3 m ρ) c j 2048 4096 = gb (err (proj (a0 m c) (a1 m c)) (proj (a0 m c) (a3 m c)) (a4 m c) (fun j => (a5 m c) (ix1 j))) j := by
  unfold GradValue.gbpart
  rw [Finset.sum_Ico_consecutive _ (by decide : 0 ≤ 2048) (by decide : 2048 ≤ 4096), ← Finset.range_eq_Ico, sum_range_ext, E_eq]
  rfl

/-! ## The updated parameters the third region finds -/

theorem coefW_at (i : S2048x2048.Idx) :
    broadcastInDim S2048x2048 ![] bcast_S_S2048x2048 (constant (F := Ideal) S_ .f32 0x34800000#32) i = coef :=
  broadcastInDim_apply _ bcast_S_S2048x2048 _ i (fun a => a.elim0) (fun a => a.elim0)

theorem coefb_at (i : S2048.Idx) :
    broadcastInDim S2048 ![] bcast_S_S2048 (constant (F := Ideal) S_ .f32 0x34800000#32) i = coef :=
  broadcastInDim_apply _ bcast_S_S2048 _ i (fun a => a.elim0) (fun a => a.elim0)

theorem wn_at (c : Dev nD) (p q : Fin 2048) :
    (V5 m ρ c main_call0_v19 : FVec Ideal S2048x2048 .bf16) (ix2 p q) = Wnew (a4 m c) (a6 m c) (gW (err (proj (a0 m c) (a1 m c)) (proj (a0 m c) (a3 m c)) (a4 m c) (fun j => (a5 m c) (ix1 j))) (proj (a0 m c) (a1 m c))) p q := by
  refine (congrFun (Between.v5_wn m ρ c) (ix2 p q)).trans ?_
  unfold Wnew
  refine congrArg₂ (· - ·) rfl (congrArg₂ (· * ·) rfl (congrArg₂ (· * ·) (coefW_at (ix2 p q)) ?_))
  refine (halvesW_at _ p q).trans ?_
  rw [GradValue.finalW (V3 m ρ) c]
  exact gW_halves m ρ c p q

theorem bn_at (c : Dev nD) (j : Fin 2048) :
    (V5 m ρ c main_call0_v20 : FVec Ideal S1x2048 .f32) (ix2 (0 : Fin 1) j)
      = bnew (fun j => (a5 m c) (ix1 j)) (fun j => (a7 m c) (ix1 j)) (gb (err (proj (a0 m c) (a1 m c)) (proj (a0 m c) (a3 m c)) (a4 m c) (fun j => (a5 m c) (ix1 j)))) j := by
  refine (congrFun (Between.v5_bn m ρ c) (ix2 (0 : Fin 1) j)).trans ?_
  refine (shapeCast_a_1a_apply _ shapeCasts_S2048_S1x2048 0 j).trans ?_
  unfold bnew
  refine congrArg₂ (· - ·) rfl (congrArg₂ (· * ·) rfl (congrArg₂ (· * ·) (coefb_at (ix1 j)) ?_))
  refine (shapeCast_1a_a_apply _ shapeCasts_S1x2048_S2048 j).trans ?_
  refine (halvesb_at _ 0 j).trans ?_
  rw [GradValue.finalb (V3 m ρ) c]
  exact gb_halves m ρ c j

theorem test_at (c : Dev nD) (r : Fin 4096) (k : Fin 2048) :
    (V5 m ρ c main_call0_v4_2 : FVec Ideal S4096x2048 .f32) (ix2 r k) = proj (a0 m c) (a2 m c) r k :=
  (congrFun (test_arr m ρ c) (ix2 r k)).trans (congrFun (congrFun (proj_round (a0 m c) (a2 m c)) r) k)

/-! ## The result -/

theorem result_at (c : Dev nD) (r : Fin 4096) (j : Fin 2048) :
    (W6 m ρ c (Proc.devRef .tc main_v0) : FVec Ideal S4096x2048 .f32) (ix2 r j)
      = out (a0 m c) (a1 m c) (a2 m c) (a3 m c) (a4 m c) (a5 m c) (a6 m c) (a7 m c) r j := by
  refine (congrFun ((Between.w6_result m ρ c).trans (QueryValue.final (V5 m ρ) c)) (ix2 r j)).trans ?_
  unfold out query
  refine congrArg₂ (· + ·) (congrArg₂ (· + ·) (Finset.sum_congr rfl fun k _ => congrArg₂ (· * ·) (test_at m ρ c r k) (wn_at m ρ c j k)) (bn_at m ρ c j)) (test_at m ρ c r j)

/-- The kernel's result array is the specification, entry by entry. -/
theorem result_eq (c : Dev nD) :
    (W6 m ρ c (Proc.devRef .tc main_v0) : FVec Ideal S4096x2048 .f32)
      = fun i => out (a0 m c) (a1 m c) (a2 m c) (a3 m c) (a4 m c) (a5 m c) (a6 m c) (a7 m c) (i 0) (i 1) :=
  funext fun i => (congrArg (W6 m ρ c (Proc.devRef .tc main_v0) : FVec Ideal S4096x2048 .f32) (eq_ix2 i)).trans (result_at m ρ c (i 0) (i 1))

end Cert.KernelIdeal.KernelValue

end
-- ==== Proof.RefValue.lean ====
/-
  The reference computes the specification. Its stages, read one at a time at an index: the three projections are
  Spec.proj; the prediction error is Spec.err of them (the transposed weights read at (j, k), the bias broadcast along
  the rows); the two gradient sums run over all 4096 rows at once (a transpose read at (ρ, p), and a row sum from
  zero); the updated parameters and the query are the specification's own formulas.
-/
import proofs.«111646_j12223476924503_2_alg».proof.Proof.Gen.ReferenceIdeal.Read
import proofs.«111646_j12223476924503_2_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

variable (x0 : (⟨S4096x2048, .f32⟩ : BufTy).Contents (Elt Ideal)) (x1 x2 x3 x4 : (⟨S2048x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal))

/-- A projection at (r, j). -/
theorem proj_at (a : (⟨S4096x2048, .f32⟩ : BufTy).Contents (Elt Ideal)) (b : (⟨S2048x2048, .f32⟩ : BufTy).Contents (Elt Ideal)) (r : Fin 4096) (j : Fin 2048) :
    val_main_v0 (F := Ideal) a b (ix2 r j) = proj a b r j := by
  rw [val_main_v0_apply]
  unfold proj
  refine Finset.sum_congr rfl fun k _ => ?_
  have el : lidx_main_v0 (ix2 r j) k = ix2 r k := funext fun a => by match a with | ⟨0, _⟩ => rfl | ⟨1, _⟩ => rfl
  have er : ridx_main_v0 (ix2 r j) k = ix2 k j := funext fun a => by match a with | ⟨0, _⟩ => rfl | ⟨1, _⟩ => rfl
  rw [el, er]

theorem proj1_at (a : (⟨S4096x2048, .f32⟩ : BufTy).Contents (Elt Ideal)) (b : (⟨S2048x2048, .f32⟩ : BufTy).Contents (Elt Ideal)) (r : Fin 4096) (j : Fin 2048) :
    val_main_v1 (F := Ideal) a b (ix2 r j) = proj a b r j := proj_at a b r j

theorem proj2_at (a : (⟨S4096x2048, .f32⟩ : BufTy).Contents (Elt Ideal)) (b : (⟨S2048x2048, .f32⟩ : BufTy).Contents (Elt Ideal)) (r : Fin 4096) (j : Fin 2048) :
    val_main_v2 (F := Ideal) a b (ix2 r j) = proj a b r j := proj_at a b r j

/-- The prediction error at (r, j). -/
theorem err_at (r : Fin 4096) (j : Fin 2048) :
    val_main_v9 (F := Ideal) x0 x1 x3 x4 x5 (ix2 r j) = (err (proj x0 x1) (proj x0 x3) x4 (fun j => x5 (ix1 j))) r j := by
  rw [val_main_v9_apply, val_main_v8_apply, val_main_v3_apply, val_main_v5_apply, val_main_v7_apply, val_main_v6_apply]
  unfold err
  refine congrArg₂ (· - ·) (congrArg₂ (· + ·) (Finset.sum_congr rfl fun k _ => congrArg₂ (· * ·) ?_ ?_) ?_)
    (congrArg₂ (· - ·) (proj1_at x0 x3 r j) (proj_at x0 x1 r j))
  · exact (congrArg (val_main_v0 (F := Ideal) x0 x1) (show lidx_main_v5 (ix2 r j) k = ix2 r k from funext fun a => by match a with | ⟨0, _⟩ => rfl | ⟨1, _⟩ => rfl)).trans (proj_at x0 x1 r k)
  · exact (val_main_v4_apply x4 _).trans (congrArg x4 (show idx_main_v4 (ridx_main_v5 (ix2 r j) k) = ix2 j k from funext fun a => by match a with | ⟨0, _⟩ => rfl | ⟨1, _⟩ => rfl))
  · exact congrArg x5 (show idx_main_v6 (idx_main_v7 (ix2 r j)) = ix1 j from funext fun a => by match a with | ⟨0, _⟩ => rfl)

/-- The weight-gradient sum at (p, q). -/
theorem gW_at (p q : Fin 2048) :
    val_main_v11 (F := Ideal) x0 x1 x3 x4 x5 (ix2 p q) = gW (err (proj x0 x1) (proj x0 x3) x4 (fun j => x5 (ix1 j))) (proj x0 x1) p q := by
  rw [val_main_v11_apply]
  unfold gW gWterm
  refine Finset.sum_congr rfl fun k _ => congrArg₂ (· * ·) ?_ ?_
  · refine (val_main_v10_apply x0 x1 x3 x4 x5 _).trans ?_
    exact (congrArg (val_main_v9 (F := Ideal) x0 x1 x3 x4 x5) (show idx_main_v10 (lidx_main_v11 (ix2 p q) k) = ix2 k p from funext fun a => by match a with | ⟨0, _⟩ => rfl | ⟨1, _⟩ => rfl)).trans (err_at x0 x1 x3 x4 x5 k p)
  · exact (congrArg (val_main_v0 (F := Ideal) x0 x1) (show ridx_main_v11 (ix2 p q) k = ix2 k q from funext fun a => by match a with | ⟨0, _⟩ => rfl | ⟨1, _⟩ => rfl)).trans (proj_at x0 x1 k q)

/-- The bias-gradient sum at j: the row sum from zero. -/
theorem gb_at (j : Fin 2048) :
    val_main_v14 (F := Ideal) x0 x1 x3 x4 x5 (ix1 j) = gb (err (proj x0 x1) (proj x0 x3) x4 (fun j => x5 (ix1 j))) j := by
  rw [val_main_v14_apply]
  unfold gb
  rw [show (val_main_cst_0 (F := Ideal)) (Shape.Idx.first h_S_) = (0 : EReal) from Ideal.ofBits_zero_f32, zero_add]
  refine Finset.sum_congr rfl fun k _ => ?_
  exact (congrArg (val_main_v9 (F := Ideal) x0 x1 x3 x4 x5) (show idx_main_v14 (ix1 j) k = ix2 k j from funext fun a => by match a with | ⟨0, _⟩ => rfl | ⟨1, _⟩ => rfl)).trans (err_at x0 x1 x3 x4 x5 k j)

/-- The updated weights at (p, q). -/
theorem wn_at (p q : Fin 2048) :
    val_main_v18 (F := Ideal) x0 x1 x3 x4 x5 x6 (ix2 p q) = Wnew x4 x6 (gW (err (proj x0 x1) (proj x0 x3) x4 (fun j => x5 (ix1 j))) (proj x0 x1)) p q := by
  rw [val_main_v18_apply, val_main_v17_apply, val_main_v13_apply, val_main_v12_apply, val_main_cst_apply, gW_at]
  rfl

/-- The updated bias at j. -/
theorem bn_at (j : Fin 2048) :
    val_main_v20 (F := Ideal) x0 x1 x3 x4 x5 x7 (ix1 j) = bnew (fun j => x5 (ix1 j)) (fun j => x7 (ix1 j)) (gb (err (proj x0 x1) (proj x0 x3) x4 (fun j => x5 (ix1 j)))) j := by
  rw [val_main_v20_apply, val_main_v19_apply, val_main_v16_apply, val_main_v15_apply, val_main_cst_1_apply, gb_at]
  rfl

/-- The result at (r, j). -/
theorem out_at (r : Fin 4096) (j : Fin 2048) :
    val_main_v26 (F := Ideal) x0 x1 x2 x3 x4 x5 x6 x7 (ix2 r j) = out x0 x1 x2 x3 x4 x5 x6 x7 r j := by
  rw [val_main_v26_apply, val_main_v25_apply, val_main_v22_apply, val_main_v24_apply, val_main_v23_apply]
  unfold out query
  refine congrArg₂ (· + ·) (congrArg₂ (· + ·) (Finset.sum_congr rfl fun k _ => congrArg₂ (· * ·) ?_ ?_) ?_) (proj2_at x0 x2 r j)
  · exact (congrArg (val_main_v2 (F := Ideal) x0 x2) (show lidx_main_v22 (ix2 r j) k = ix2 r k from funext fun a => by match a with | ⟨0, _⟩ => rfl | ⟨1, _⟩ => rfl)).trans (proj2_at x0 x2 r k)
  · refine (val_main_v21_apply x0 x1 x3 x4 x5 x6 _).trans ?_
    exact (congrArg (val_main_v18 (F := Ideal) x0 x1 x3 x4 x5 x6) (show idx_main_v21 (ridx_main_v22 (ix2 r j) k) = ix2 j k from funext fun a => by match a with | ⟨0, _⟩ => rfl | ⟨1, _⟩ => rfl)).trans (wn_at x0 x1 x3 x4 x5 x6 j k)
  · exact (congrArg (val_main_v20 (F := Ideal) x0 x1 x3 x4 x5 x7) (show idx_main_v23 (idx_main_v24 (ix2 r j)) = ix1 j from funext fun a => by match a with | ⟨0, _⟩ => rfl)).trans (bn_at x0 x1 x3 x4 x5 x7 j)

/-- The reference's result array is the specification, entry by entry. -/
theorem result_eq : val_main_v26 (F := Ideal) x0 x1 x2 x3 x4 x5 x6 x7 = fun i => out x0 x1 x2 x3 x4 x5 x6 x7 (i 0) (i 1) :=
  funext fun i => (congrArg (val_main_v26 (F := Ideal) x0 x1 x2 x3 x4 x5 x6 x7) (eq_ix2 i)).trans (out_at x0 x1 x2 x3 x4 x5 x6 x7 (i 0) (i 1))

end Cert.ReferenceIdeal.RefValue

end
-- ==== Proof.lean ====
/-
  A test-time-training inner step: one gradient-descent update of a linear layer on a reconstruction loss, then a
  query through the updated layer. With rows r < 4096 and features j, k, p, q < 2048, both programs compute

    train = src · θk,   label = src · θv,   test = src · θq,
    err[r, j] = ((∑ k, train[r, k] · W[j, k]) + b[j]) − (label[r, j] − train[r, j]),
    W' = W − lr_w · (2⁻²² · errᵀ · train),      b' = b − lr_b · (2⁻²² · ∑ r, err[r, ·]),
    out[r, j] = ((∑ k, test[r, k] · W'[j, k]) + b'[j]) + test[r, j]                     (Proof/Spec.lean).

  The reference does this in thirty host operations. The kernel does it in three grid regions — the three projections
  in row blocks of 128; the two gradient sums accumulated in row blocks of 256, eight blocks to each half of the rows,
  each half from a zero block and written back after its last block; the query in row blocks of 512 — with the halves
  added, scaled and the descent step taken on the host in between. Over the extended reals the rounding of matmul
  operands is the identity and the same scale word 2⁻²² multiplies the same sums on both sides, so the two results
  differ only in how the sum over the 4096 rows is grouped; addition is commutative and associative there, and
  adjacent intervals of rows add up to their union. The precondition (finite inputs) is never used.

  frame: the two kernel programs' frames are the generated ones; the reference's is its generated run with the
  result dropped. preserves: the idealization rewrote nothing. algebraic: the kernel's result array
  (Proof/KernelRun.lean, Proof/KernelValue.lean) and the reference's (its generated run, Proof/RefValue.lean) are
  both Spec.out of arguments that agree.
-/
import proofs.«111646_j12223476924503_2_alg».proof.Defs
import proofs.«111646_j12223476924503_2_alg».proof.Proof.Gen.Kernel
import proofs.«111646_j12223476924503_2_alg».proof.Proof.Gen.Kernel.Skeleton
import proofs.«111646_j12223476924503_2_alg».proof.Proof.Gen.Kernel.Launch
import proofs.«111646_j12223476924503_2_alg».proof.Proof.Gen.Kernel.Points
import proofs.«111646_j12223476924503_2_alg».proof.Proof.Gen.Kernel.Frame
import proofs.«111646_j12223476924503_2_alg».proof.Proof.Gen.KernelIdeal
import proofs.«111646_j12223476924503_2_alg».proof.Proof.Gen.KernelIdeal.Skeleton
import proofs.«111646_j12223476924503_2_alg».proof.Proof.Gen.KernelIdeal.Launch
import proofs.«111646_j12223476924503_2_alg».proof.Proof.Gen.KernelIdeal.Points
import proofs.«111646_j12223476924503_2_alg».proof.Proof.Gen.KernelIdeal.Frame
import proofs.«111646_j12223476924503_2_alg».proof.Proof.Gen.ReferenceIdeal
import proofs.«111646_j12223476924503_2_alg».proof.Proof.Gen.Pre_finite_inputs
import proofs.«111646_j12223476924503_2_alg».proof.Proof.Gen.ReferenceIdeal.Run
import proofs.«111646_j12223476924503_2_alg».proof.Proof.Gen.ReferenceIdeal.Read
import proofs.«111646_j12223476924503_2_alg».proof.Proof.Spec
import proofs.«111646_j12223476924503_2_alg».proof.Proof.KernelRun
import proofs.«111646_j12223476924503_2_alg».proof.Proof.KernelValue
import proofs.«111646_j12223476924503_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result arrays at the specification of arguments that agree. -/
theorem algebraic : Cert.algebraic_KernelIdeal_ReferenceIdeal := by
  intro m ρ m' ρ' _ hagree
  refine ⟨fun c => fun i => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1), ?_, ?_⟩
  · exact (θ_run Cert.KernelIdeal.defs _ _).mono
      (fun _ h c => ⟨(h c).1.trans (Cert.KernelIdeal.KernelValue.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v26_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
